-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S1x128 : Shape := ⟨2, ![1, 128]⟩
abbrev S4000 : Shape := ⟨1, ![4000]⟩
abbrev S100000x40 : Shape := ⟨2, ![100000, 40]⟩
abbrev S4000x40 : Shape := ⟨2, ![4000, 40]⟩
abbrev S1x40 : Shape := ⟨2, ![1, 40]⟩

abbrev nBuf : Space → Nat
  | .hbm => 60
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S128x128, .bf16⟩
  | .hbm, ⟨26, _⟩ => ⟨S128x128, .bf16⟩
  | .hbm, ⟨27, _⟩ => ⟨S128x40, .bf16⟩
  | .hbm, ⟨28, _⟩ => ⟨S128x40, .bf16⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S4000x1, .f32⟩
  | .local _ .vmem, ⟨16, _⟩ => ⟨S4000x1, .f32⟩
  | .local _ .vmem, ⟨17, _⟩ => ⟨S128x40, .bf16⟩
  | .local _ .vmem, ⟨18, _⟩ => ⟨S40, .f32⟩
  | .local _ .vmem, ⟨19, _⟩ => ⟨S128x40, .bf16⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x40 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  packedbf16_S4000x128_S4000x128_0_0 : (Rect.unit (s := S4000x128) ![0, 0] S4000x128.size inb_S4000x128_S4000x128_0_0).PackedRows (EltTy.packing .bf16)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .bf16 = 32 ∨ (Rect.block (s := S128x40) S128x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x40.size a ≤ S128x40.size a
  hwx1_5 : ∀ i : grid1.Coords, EltTy.bits .bf16 = 32 ∨ (Rect.block (s := S128x40) S128x40.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .f32 = 32 ∨ (Rect.block (s := S100000x40) S4000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v28) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S100000x40, .f32⟩
  | .hbm, ⟨87, _⟩ => ⟨S100000x40, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x40, .f32⟩
  | .hbm, ⟨111, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_call3_cst_0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_cst_1 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_v65 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibRowOps.lean ====
/-
  ROW AND COLUMN SPREADS OF SMALL ARRAYS, AND THE SWAP OF A MATRIX'S AXES, READ AT AN INDEX.

  A bias vector `[c]` added to every row of an `[a, c]` array is first recast to `[1, c]` and then spread over
  the rows; the device spells this with a shape cast and a broadcast, the host with two `broadcast_in_dim`s. Either
  way the entry at `(p, q)` is the vector's entry `q`. A column `[a, 1]` spread over the columns of `[a, b]` by the
  host reads the column's entry of row `p`. The transpose with permutation `[1, 0]` of an `[a, b]` array reads, at
  `(p, q)`, the entry `(q, p)`.
-/
import Idealize.ShloMosaic.Lib.ValueIdx
import Idealize.ShloMosaic.Lib.Pipeline.Value

noncomputable section

namespace Cert.RowOps

open Idealize.ShloMosaic Idealize.ShloMosaic.ValueIdx

/-- The transpose `[a, b] → [b, a]` reads, at `(p, q)`, the entry `(q, p)`. -/
theorem transpose_swap_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun d => match d with
    | ⟨0, _⟩ => rfl
    | ⟨1, _⟩ => rfl

/-- On the device: a vector `[c]` recast to `[1, c]` and spread over the rows of `[a, c]` reads, at `(p, q)`, its entry `q`. -/
theorem rowSpread_apply {α : Type} {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (p : Fin a) (q : Fin c) :
    broadcastTo ⟨2, ![a, c]⟩ (shapeCast ⟨2, ![1, c]⟩ v h1) h2 (ix2 p q) = v (ix1 q) := by
  rw [broadcastTo_apply (shapeCast ⟨2, ![1, c]⟩ v h1) h2 (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  refine (shapeCast_addUnit_apply ![c] v h1 (ix2 (0 : Fin 1) q)).trans (congrArg v ?_)
  funext d
  match d with
  | ⟨0, _⟩ => rfl

/-- On the host: a vector `[c]` placed as the one row of `[1, c]` and spread over the rows of `[a, c]` reads, at
    `(p, q)`, its entry `q`. -/
theorem hostRowSpread_apply {α : Type} {a c : ℕ} (v : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (p : Fin a) (q : Fin c) :
    broadcastInDim ⟨2, ![a, c]⟩ ![0, 1] h2 (broadcastInDim ⟨2, ![1, c]⟩ ![1] h1 v) (ix2 p q) = v (ix1 q) := by
  rw [broadcastInDim_apply ![0, 1] h2 _ (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  exact broadcastInDim_apply ![1] h1 v (ix2 (0 : Fin 1) q) (ix1 q) (fun d => match d with
    | ⟨0, _⟩ => by
        show q.val = if c = 1 then 0 else q.val
        split
        · have := q.isLt; omega
        · rfl)

/-- On the host: a column `[a, 1]` spread over the columns of `[a, b]` reads, at `(p, q)`, the column's entry of row `p`. -/
theorem hostColSpread_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) (fun d => match d with
    | ⟨0, _⟩ => by
        show p.val = if a = 1 then 0 else p.val
        split
        · have := p.isLt; omega
        · rfl
    | ⟨1, _⟩ => by show (0 : ℕ) = if (1 : ℕ) = 1 then 0 else q.val; rw [if_pos rfl])

end Cert.RowOps

end
-- ==== Proof.SageSpec.lean ====
/-
  ONE GRAPH-CONVOLUTION LAYER WITH MEAN AGGREGATION, ROW BY ROW, ON THE EXTENDED REALS.

  A layer maps, for every node p, the row S p (the sum of the neighbours' features), the row X p (the node's own
  features) and the node's clamped in-degree to

      pre p q = sum_k (S p k / deg p) * Wl k q  +  sum_k X p k * Wr k q  +  b q,

  divides the row by max (sqrt (sum_j (pre p j)^2)) eps, and then applies either the rectifier max (., 0) or the
  logarithm of the softmax along the row. Two arrangements of pre occur: the mean taken as a product with the
  reciprocal 1 / deg p, the bias added last; and the mean taken as a quotient, the bias added before the self term.
  They agree for every extended real S p k as soon as deg p is not zero: x * (1 * d^-1) = x * d^-1 needs no
  finiteness, and the sum of three terms is rearranged by commutativity and associativity alone.
-/
import Idealize.ShloMosaic.PureOps.Ideal.Laws
import Idealize.ShloMosaic.Lib.ValueIdx

noncomputable section

open scoped BigOperators

namespace Cert.Sage

open Idealize.ShloMosaic Idealize.ShloMosaic.ValueIdx

variable {N D C : ℕ}

/-- The pre-activation with the mean taken as a product with the reciprocal degree, the bias added last. -/
def preMul (S X : (⟨2, ![N, D]⟩ : Shape).Idx → EReal) (dinv : (⟨2, ![N, 1]⟩ : Shape).Idx → EReal)
    (Wl Wr : (⟨2, ![D, C]⟩ : Shape).Idx → EReal) (b : (⟨1, ![C]⟩ : Shape).Idx → EReal) (p : Fin N) (q : Fin C) : EReal :=
  (∑ k : Fin D, S (ix2 p k) * dinv (ix2 p (0 : Fin 1)) * Wl (ix2 k q) + ∑ k : Fin D, X (ix2 p k) * Wr (ix2 k q)) + b (ix1 q)

/-- The pre-activation with the mean taken as a quotient by the clamped degree, the bias added before the self term. -/
def preDiv (S X : (⟨2, ![N, D]⟩ : Shape).Idx → EReal) (dm : (⟨1, ![N]⟩ : Shape).Idx → EReal)
    (Wl Wr : (⟨2, ![D, C]⟩ : Shape).Idx → EReal) (b : (⟨1, ![C]⟩ : Shape).Idx → EReal) (p : Fin N) (q : Fin C) : EReal :=
  (∑ k : Fin D, Ideal.div (S (ix2 p k)) (dm (ix1 p)) * Wl (ix2 k q) + b (ix1 q)) + ∑ k : Fin D, X (ix2 p k) * Wr (ix2 k q)

/-- A row divided by its Euclidean norm, the norm clamped below by eps. -/
def normRow (eps : EReal) (r : Fin C → EReal) (q : Fin C) : EReal :=
  Ideal.div (r q) (max (Ideal.sqrt (∑ j : Fin C, r j * r j)) eps)

/-- The rectifier against the constant z. -/
def reluRow (z : EReal) (r : Fin C → EReal) (q : Fin C) : EReal := max (r q) z

/-- The logarithm of the softmax of a row: the row shifted by its maximum (folded from lo), minus the logarithm of
    the sum of the exponentials of the shifted row. -/
def logSoftmaxRow (lo : EReal) (r : Fin C → EReal) (q : Fin C) : EReal :=
  (r q - (Finset.univ : Finset (Fin C)).fold max lo r)
    - Ideal.log (∑ j : Fin C, Ideal.exp (r j - (Finset.univ : Finset (Fin C)).fold max lo r))

/-- A product with the reciprocal is the quotient, for every extended real numerator, when the divisor is not zero. -/
theorem mul_recip_eq_div (s d : EReal) (hd : d ≠ 0) : s * Ideal.div 1 d = Ideal.div s d := by
  unfold Ideal.div
  rw [if_neg hd, if_neg hd, one_mul]

/-- The two arrangements of the pre-activation agree at a node whose clamped degree is not zero and whose reciprocal
    entry is the reciprocal of that degree. -/
theorem preMul_eq_preDiv (S X : (⟨2, ![N, D]⟩ : Shape).Idx → EReal) (dinv : (⟨2, ![N, 1]⟩ : Shape).Idx → EReal)
    (dm : (⟨1, ![N]⟩ : Shape).Idx → EReal) (Wl Wr : (⟨2, ![D, C]⟩ : Shape).Idx → EReal)
    (b : (⟨1, ![C]⟩ : Shape).Idx → EReal) (p : Fin N) (q : Fin C)
    (hinv : dinv (ix2 p (0 : Fin 1)) = Ideal.div 1 (dm (ix1 p))) (hd : dm (ix1 p) ≠ 0) :
    preMul S X dinv Wl Wr b p q = preDiv S X dm Wl Wr b p q := by
  unfold preMul preDiv
  rw [add_right_comm]
  refine congrArg (· + _) (congrArg (· + _) (Finset.sum_congr rfl fun k _ => ?_))
  rw [hinv, mul_recip_eq_div _ _ hd]

/-- The pre-activation reads of S, X and the reciprocal only the node's own row: two nodes (of two arrays, of
    different heights) whose rows agree have the same pre-activation. -/
theorem preMul_congr {N' : ℕ} (S X : (⟨2, ![N, D]⟩ : Shape).Idx → EReal) (dinv : (⟨2, ![N, 1]⟩ : Shape).Idx → EReal)
    (S' X' : (⟨2, ![N', D]⟩ : Shape).Idx → EReal) (dinv' : (⟨2, ![N', 1]⟩ : Shape).Idx → EReal)
    (Wl Wr Wl' Wr' : (⟨2, ![D, C]⟩ : Shape).Idx → EReal) (b b' : (⟨1, ![C]⟩ : Shape).Idx → EReal)
    (p : Fin N) (p' : Fin N') (q : Fin C)
    (hS : ∀ k, S (ix2 p k) = S' (ix2 p' k)) (hX : ∀ k, X (ix2 p k) = X' (ix2 p' k))
    (hd : dinv (ix2 p (0 : Fin 1)) = dinv' (ix2 p' (0 : Fin 1)))
    (hWl : Wl = Wl') (hWr : Wr = Wr') (hb : b = b') :
    preMul S X dinv Wl Wr b p q = preMul S' X' dinv' Wl' Wr' b' p' q := by
  subst hWl hWr hb
  unfold preMul
  rw [hd]
  refine congrArg (· + _) (congrArg₂ (· + ·) (Finset.sum_congr rfl fun k _ => by rw [hS k])
    (Finset.sum_congr rfl fun k _ => by rw [hX k]))

/-- The maximum of a row folded from lo is at least lo, so a further maximum with lo changes nothing. -/
theorem max_lo_fold (lo : EReal) (r : Fin C → EReal) :
    max lo ((Finset.univ : Finset (Fin C)).fold max lo r) = (Finset.univ : Finset (Fin C)).fold max lo r :=
  max_eq_right ((Finset.le_fold_max lo).mpr (Or.inl le_rfl))

/-! ## A layer as one function of whole arrays -/

/-- The rectified layer, reciprocal arrangement: entry (p, q) of the result from row p of the inputs. -/
def reluLayer (z eps : EReal) (S X : (⟨2, ![N, D]⟩ : Shape).Idx → EReal) (dinv : (⟨2, ![N, 1]⟩ : Shape).Idx → EReal)
    (Wl Wr : (⟨2, ![D, C]⟩ : Shape).Idx → EReal) (b : (⟨1, ![C]⟩ : Shape).Idx → EReal) :
    (⟨2, ![N, C]⟩ : Shape).Idx → EReal :=
  fun i => reluRow z (normRow eps (preMul S X dinv Wl Wr b (i 0))) (i 1)

/-- The log-softmax layer, reciprocal arrangement. -/
def logSoftmaxLayer (lo eps : EReal) (S X : (⟨2, ![N, D]⟩ : Shape).Idx → EReal) (dinv : (⟨2, ![N, 1]⟩ : Shape).Idx → EReal)
    (Wl Wr : (⟨2, ![D, C]⟩ : Shape).Idx → EReal) (b : (⟨1, ![C]⟩ : Shape).Idx → EReal) :
    (⟨2, ![N, C]⟩ : Shape).Idx → EReal :=
  fun i => logSoftmaxRow lo (normRow eps (preMul S X dinv Wl Wr b (i 0))) (i 1)

/-- The rectified layer, quotient arrangement. -/
def reluLayerDiv (z eps : EReal) (S X : (⟨2, ![N, D]⟩ : Shape).Idx → EReal) (dm : (⟨1, ![N]⟩ : Shape).Idx → EReal)
    (Wl Wr : (⟨2, ![D, C]⟩ : Shape).Idx → EReal) (b : (⟨1, ![C]⟩ : Shape).Idx → EReal) :
    (⟨2, ![N, C]⟩ : Shape).Idx → EReal :=
  fun i => reluRow z (normRow eps (preDiv S X dm Wl Wr b (i 0))) (i 1)

/-- The log-softmax layer, quotient arrangement. -/
def logSoftmaxLayerDiv (lo eps : EReal) (S X : (⟨2, ![N, D]⟩ : Shape).Idx → EReal) (dm : (⟨1, ![N]⟩ : Shape).Idx → EReal)
    (Wl Wr : (⟨2, ![D, C]⟩ : Shape).Idx → EReal) (b : (⟨1, ![C]⟩ : Shape).Idx → EReal) :
    (⟨2, ![N, C]⟩ : Shape).Idx → EReal :=
  fun i => logSoftmaxRow lo (normRow eps (preDiv S X dm Wl Wr b (i 0))) (i 1)

/-- With every clamped degree nonzero and the reciprocal column its reciprocal, the two arrangements of the rectified
    layer are one function. -/
theorem reluLayer_eq_div (z eps : EReal) (S X : (⟨2, ![N, D]⟩ : Shape).Idx → EReal) (dinv : (⟨2, ![N, 1]⟩ : Shape).Idx → EReal)
    (dm : (⟨1, ![N]⟩ : Shape).Idx → EReal) (Wl Wr : (⟨2, ![D, C]⟩ : Shape).Idx → EReal) (b : (⟨1, ![C]⟩ : Shape).Idx → EReal)
    (hinv : ∀ p : Fin N, dinv (ix2 p (0 : Fin 1)) = Ideal.div 1 (dm (ix1 p))) (hd : ∀ p : Fin N, dm (ix1 p) ≠ 0) :
    reluLayer z eps S X dinv Wl Wr b = reluLayerDiv z eps S X dm Wl Wr b :=
  funext fun i => congrArg (fun r => reluRow z (normRow eps r) (i 1))
    (funext fun q => preMul_eq_preDiv S X dinv dm Wl Wr b (i 0) q (hinv (i 0)) (hd (i 0)))

/-- The same for the log-softmax layer. -/
theorem logSoftmaxLayer_eq_div (lo eps : EReal) (S X : (⟨2, ![N, D]⟩ : Shape).Idx → EReal) (dinv : (⟨2, ![N, 1]⟩ : Shape).Idx → EReal)
    (dm : (⟨1, ![N]⟩ : Shape).Idx → EReal) (Wl Wr : (⟨2, ![D, C]⟩ : Shape).Idx → EReal) (b : (⟨1, ![C]⟩ : Shape).Idx → EReal)
    (hinv : ∀ p : Fin N, dinv (ix2 p (0 : Fin 1)) = Ideal.div 1 (dm (ix1 p))) (hd : ∀ p : Fin N, dm (ix1 p) ≠ 0) :
    logSoftmaxLayer lo eps S X dinv Wl Wr b = logSoftmaxLayerDiv lo eps S X dm Wl Wr b :=
  funext fun i => congrArg (fun r => logSoftmaxRow lo (normRow eps r) (i 1))
    (funext fun q => preMul_eq_preDiv S X dinv dm Wl Wr b (i 0) q (hinv (i 0)) (hd (i 0)))

end Cert.Sage

end
-- ==== Proof.LibLayerBody.lean ====
/-
  THE DEVICE'S SPELLING OF ONE GRAPH-CONVOLUTION LAYER ON A BLOCK OF ROWS, READ AT AN INDEX.

  On a block of N rows the body forms (S * spread(dinv)) x Wl + X x Wr + spread(b) with two matrix products into
  zeros, takes each row's sum of squares with a lane reduction kept as a column, divides by the clamped square root,
  and either clamps at zero or subtracts the row maximum and the logarithm of the row's sum of exponentials. Read at
  (p, q) each of these is the row formula of the specification: a lane reduction over the last axis is the sum (or the
  maximum folded from the accumulator's value) over the row, a vector recast as a column reads its entry, a column
  spread over the columns reads its row's entry. Generic in the three extents.
-/
import Idealize.ShloMosaic.PureOps.Ideal.Laws
import Idealize.ShloMosaic.Lib.ValueIdx
import Idealize.ShloMosaic.Lib.Pipeline.Value
import proofs.«167643_j22411139350784_2_alg».proof.Proof.LibMatOps
import proofs.«167643_j22411139350784_2_alg».proof.Proof.LibColumnCast
import proofs.«167643_j22411139350784_2_alg».proof.Proof.LibRowOps
import proofs.«167643_j22411139350784_2_alg».proof.Proof.SageSpec

noncomputable section

open scoped BigOperators

namespace Cert.SageBody

open Idealize.ShloMosaic Idealize.ShloMosaic.ValueIdx Cert.Sage Cert.MatOps

variable {N D C : ℕ}

/-- A lane reduction with addition over the last axis of an [N, C] block, at row p, is the sum over the row. -/
theorem rowSum_apply (v : FVec Ideal ⟨2, ![N, C]⟩ .f32) (acc : BitVec 32)
    (h : (⟨2, ![N, C]⟩ : Shape).Reduces [1] ⟨1, ![N]⟩) (hφ : FKind.Formats .f32)
    (hacc : acc = FKind.add.neutral .f32 hφ) (p : Fin N) :
    multiReduction .add [1] ⟨1, ![N]⟩ v acc h hφ hacc (ix1 p) = ∑ k : Fin C, v (ix2 p k) :=
  (Ideal.multiReduction_add_single v acc h hφ hacc (ix1 p)).trans
    (Finset.sum_congr rfl fun k _ => congrArg v (funext fun a => Fin.ext (by
      match a with
      | ⟨0, _⟩ => rfl
      | ⟨1, _⟩ => rfl)))

/-- A lane reduction with the maximum over the last axis, at row p, is the row's maximum folded from the
    accumulator's value. -/
theorem rowMax_apply (v : FVec Ideal ⟨2, ![N, C]⟩ .f32) (acc : BitVec 32)
    (h : (⟨2, ![N, C]⟩ : Shape).Reduces [1] ⟨1, ![N]⟩) (hφ : FKind.Formats .f32)
    (hacc : acc = FKind.maximumf.neutral .f32 hφ) (p : Fin N) :
    multiReduction .maximumf [1] ⟨1, ![N]⟩ v acc h hφ hacc (ix1 p)
      = (Finset.univ : Finset (Fin C)).fold max (Ideal.ofBits .f32 acc) (fun k => v (ix2 p k)) :=
  (Ideal.multiReduction_maximumf_single v acc h hφ hacc (ix1 p)).trans
    (congrArg (fun f => (Finset.univ : Finset (Fin C)).fold max (Ideal.ofBits .f32 acc) f)
      (funext fun k => congrArg v (funext fun a => Fin.ext (by
        match a with
        | ⟨0, _⟩ => rfl
        | ⟨1, _⟩ => rfl))))

/-- The pre-activation block at (p, q): the two products into zeros and the bias spread over the rows. -/
theorem devicePre_apply
    (d : DotDims ⟨2, ![N, D]⟩ ⟨2, ![D, C]⟩ ⟨2, ![N, C]⟩)
    (wf : DotDims.WF ⟨2, ![N, D]⟩ ⟨2, ![D, C]⟩ ⟨2, ![N, C]⟩ [1] [0] [0] [1] [] [])
    (hd : d = plainDot N D C wf)
    (x0 : FVec Ideal ⟨2, ![N, D]⟩ .f32) (x2 : FVec Ideal ⟨2, ![N, 1]⟩ .f32) (x7 : FVec Ideal ⟨2, ![N, D]⟩ .bf16)
    (x9 x11 : FVec Ideal ⟨2, ![D, C]⟩ .bf16) (x16 : FVec Ideal ⟨1, ![C]⟩ .f32)
    (c0 c7 : (⟨2, ![N, D]⟩ : Shape).ShapeCasts ⟨2, ![N, D]⟩) (c2 : (⟨2, ![N, 1]⟩ : Shape).ShapeCasts ⟨2, ![N, 1]⟩)
    (b2 : (⟨2, ![N, 1]⟩ : Shape).Broadcasts ⟨2, ![N, D]⟩) (hlt : FTy.bits .bf16 < FTy.bits .f32)
    (c9 c11 : (⟨2, ![D, C]⟩ : Shape).ShapeCasts ⟨2, ![D, C]⟩)
    (c16 : (⟨1, ![C]⟩ : Shape).ShapeCasts ⟨2, ![1, C]⟩) (b16 : (⟨2, ![1, C]⟩ : Shape).Broadcasts ⟨2, ![N, C]⟩)
    (p : Fin N) (q : Fin C) :
    addf (addf (matmul d none (truncf .bf16 (mulf (shapeCast ⟨2, ![N, D]⟩ x0 c0)
                    (broadcastTo ⟨2, ![N, D]⟩ (shapeCast ⟨2, ![N, 1]⟩ x2 c2) b2)) hlt)
                  (shapeCast ⟨2, ![D, C]⟩ x9 c9) (constant ⟨2, ![N, C]⟩ .f32 0x00000000#32))
               (matmul d none (shapeCast ⟨2, ![N, D]⟩ x7 c7) (shapeCast ⟨2, ![D, C]⟩ x11 c11)
                  (constant ⟨2, ![N, C]⟩ .f32 0x00000000#32)))
         (broadcastTo ⟨2, ![N, C]⟩ (shapeCast ⟨2, ![1, C]⟩ x16 c16) b16) (ix2 p q)
      = preMul x0 x7 x2 x9 x11 x16 p q := by
  subst hd
  simp only [shapeCast_self]
  show FloatOps.matmul (plainDot N D C wf) none (truncf .bf16 (mulf x0 (broadcastTo ⟨2, ![N, D]⟩ x2 b2)) hlt) x9
          (constant ⟨2, ![N, C]⟩ .f32 0x00000000#32) (ix2 p q)
        + FloatOps.matmul (plainDot N D C wf) none x7 x11 (constant ⟨2, ![N, C]⟩ .f32 0x00000000#32) (ix2 p q)
        + broadcastTo ⟨2, ![N, C]⟩ (shapeCast ⟨2, ![1, C]⟩ x16 c16) b16 (ix2 p q) = _
  rw [matmul_plain_apply wf, matmul_plain_apply wf, Cert.RowOps.rowSpread_apply]
  unfold preMul
  refine congrArg (· + _) (congrArg (· + _) (Finset.sum_congr rfl fun k _ => ?_))
  show x0 (ix2 p k) * broadcastTo ⟨2, ![N, D]⟩ x2 b2 (ix2 p k) * x9 (ix2 k q) = _
  rw [broadcastTo_a1_ab_apply]

/-- The row divided by its clamped norm: the lane sum of squares kept as a column, its square root clamped below by
    the constant e, spread back over the columns. -/
theorem normTail_apply (v : FVec Ideal ⟨2, ![N, C]⟩ .f32) (e : BitVec 32)
    (h : (⟨2, ![N, C]⟩ : Shape).Reduces [1] ⟨1, ![N]⟩) (hφ : FKind.Formats .f32)
    (hacc : (0x00000000#32 : BitVec 32) = FKind.add.neutral .f32 hφ)
    (hc : (⟨1, ![N]⟩ : Shape).ShapeCasts ⟨2, ![N, 1]⟩) (hb : (⟨2, ![N, 1]⟩ : Shape).Broadcasts ⟨2, ![N, C]⟩)
    (p : Fin N) (q : Fin C) :
    divf v (broadcastTo ⟨2, ![N, C]⟩ (maximumf (sqrt (shapeCast ⟨2, ![N, 1]⟩
        (multiReduction .add [1] ⟨1, ![N]⟩ (mulf v v) 0x00000000#32 h hφ hacc) hc))
          (broadcast ⟨2, ![N, 1]⟩ (Scalar.ofBits .f32 e))) hb) (ix2 p q)
      = normRow (Ideal.ofBits .f32 e) (fun j => v (ix2 p j)) q := by
  rw [divf_apply, broadcastTo_a1_ab_apply]
  show Ideal.div (v (ix2 p q)) (max (Ideal.sqrt (shapeCast ⟨2, ![N, 1]⟩
      (multiReduction .add [1] ⟨1, ![N]⟩ (mulf v v) 0x00000000#32 h hφ hacc) hc (ix2 p (0 : Fin 1)))) (Ideal.ofBits .f32 e)) = _
  rw [Cert.LibColumnCast.column_cast, rowSum_apply]
  rfl

/-- The logarithm of the softmax of a row: the lane maximum and the lane sum of exponentials, each kept as a column
    and spread back. -/
theorem logSoftmaxTail_apply (v : FVec Ideal ⟨2, ![N, C]⟩ .f32) (lo : BitVec 32)
    (h : (⟨2, ![N, C]⟩ : Shape).Reduces [1] ⟨1, ![N]⟩) (hφ : FKind.Formats .f32)
    (hmax : lo = FKind.maximumf.neutral .f32 hφ)
    (hacc : (0x00000000#32 : BitVec 32) = FKind.add.neutral .f32 hφ)
    (hc : (⟨1, ![N]⟩ : Shape).ShapeCasts ⟨2, ![N, 1]⟩) (hb : (⟨2, ![N, 1]⟩ : Shape).Broadcasts ⟨2, ![N, C]⟩)
    (p : Fin N) (q : Fin C) :
    subf (subf v (broadcastTo ⟨2, ![N, C]⟩ (shapeCast ⟨2, ![N, 1]⟩ (multiReduction .maximumf [1] ⟨1, ![N]⟩ v lo h hφ hmax) hc) hb))
      (broadcastTo ⟨2, ![N, C]⟩ (log (shapeCast ⟨2, ![N, 1]⟩ (multiReduction .add [1] ⟨1, ![N]⟩
        (exp (subf v (broadcastTo ⟨2, ![N, C]⟩ (shapeCast ⟨2, ![N, 1]⟩ (multiReduction .maximumf [1] ⟨1, ![N]⟩ v lo h hφ hmax) hc) hb)))
        0x00000000#32 h hφ hacc) hc)) hb) (ix2 p q)
      = logSoftmaxRow (Ideal.ofBits .f32 lo) (fun j => v (ix2 p j)) q := by
  have hm : ∀ j : Fin C, broadcastTo ⟨2, ![N, C]⟩ (shapeCast ⟨2, ![N, 1]⟩ (multiReduction .maximumf [1] ⟨1, ![N]⟩ v lo h hφ hmax) hc) hb (ix2 p j)
      = (Finset.univ : Finset (Fin C)).fold max (Ideal.ofBits .f32 lo) (fun k => v (ix2 p k)) := fun j => by
    rw [broadcastTo_a1_ab_apply, Cert.LibColumnCast.column_cast, rowMax_apply]
  rw [subf_apply, subf_apply, hm q, broadcastTo_a1_ab_apply]
  show _ - Ideal.log (shapeCast ⟨2, ![N, 1]⟩ (multiReduction .add [1] ⟨1, ![N]⟩
        (exp (subf v (broadcastTo ⟨2, ![N, C]⟩ (shapeCast ⟨2, ![N, 1]⟩ (multiReduction .maximumf [1] ⟨1, ![N]⟩ v lo h hφ hmax) hc) hb)))
        0x00000000#32 h hφ hacc) hc (ix2 p (0 : Fin 1))) = _
  rw [Cert.LibColumnCast.column_cast, rowSum_apply]
  unfold logSoftmaxRow
  refine congrArg (fun s => _ - Ideal.log s) (Finset.sum_congr rfl fun j _ => ?_)
  show Ideal.exp (v (ix2 p j) - broadcastTo ⟨2, ![N, C]⟩ (shapeCast ⟨2, ![N, 1]⟩ (multiReduction .maximumf [1] ⟨1, ![N]⟩ v lo h hφ hmax) hc) hb (ix2 p j)) = _
  rw [hm j]

end Cert.SageBody

end
-- ==== Proof.KernelBody.lean ====
/-
  What each kernel body stores, as the layer function of the blocks it loads: the first body's block is the rectified
  layer of its 4000 rows, the second body's the log-softmax layer. Both bodies read the neighbour sums S, the
  reciprocal-degree column, the self features X, the two weight matrices and the bias; entry (p, q) of the stored block
  depends on row p of S, X and the reciprocal column only.
-/
import proofs.«167643_j22411139350784_2_alg».proof.Proof.Gen.KernelIdeal.Skeleton
import proofs.«167643_j22411139350784_2_alg».proof.Proof.LibLayerBody

noncomputable section

namespace Cert.KernelIdeal.Body

open Cert.KernelIdeal Cert.KernelIdeal.Gen Idealize.ShloMosaic Idealize.ShloMosaic.ValueIdx Cert.Sage Cert.SageBody

/-- The first body's stored block: the rectified layer of the loaded blocks. -/
theorem pay0_eq (x0 : Vec Ideal S4000x128 .f32) (x2 : Vec Ideal S4000x1 .f32) (x7 : Vec Ideal S4000x128 .bf16)
    (x9 x11 : Vec Ideal S128x128 .bf16) (x16 : Vec Ideal S128 .f32) :
    k0_pay1 (F := Ideal) x0 x2 x7 x9 x11 x16
      = reluLayer (Ideal.ofBits .f32 0x00000000#32) (Ideal.ofBits .f32 0x2B8CBCCC#32) x0 x7 x2 x9 x11 x16 := by
  funext j
  obtain ⟨p, q, rfl⟩ : ∃ (p : Fin 4000) (q : Fin 128), j = ix2 p q := ⟨j 0, j 1, eq_ix2 j⟩
  unfold k0_pay1 reluLayer reluRow
  show max (divf _ _ (ix2 p q)) (Ideal.ofBits .f32 0x00000000#32) = _
  refine (congrArg (fun a => max a (Ideal.ofBits .f32 0x00000000#32))
    (normTail_apply _ 0x2B8CBCCC#32 _ _ _ _ _ p q)).trans ?_
  refine congrArg (fun r => max (normRow (Ideal.ofBits .f32 0x2B8CBCCC#32) r q) (Ideal.ofBits .f32 0x00000000#32))
    (funext fun j => ?_)
  exact devicePre_apply _ _ rfl x0 x2 x7 x9 x11 x16 _ _ _ _ _ _ _ _ _ p j

/-- The second body's stored block: the log-softmax layer of the loaded blocks. -/
theorem pay1_eq (x0 : Vec Ideal S4000x128 .f32) (x2 : Vec Ideal S4000x1 .f32) (x7 : Vec Ideal S4000x128 .bf16)
    (x9 x11 : Vec Ideal S128x40 .bf16) (x16 : Vec Ideal S40 .f32) :
    k1_pay1 (F := Ideal) x0 x2 x7 x9 x11 x16
      = logSoftmaxLayer (Ideal.ofBits .f32 0xFF800000#32) (Ideal.ofBits .f32 0x2B8CBCCC#32) x0 x7 x2 x9 x11 x16 := by
  funext j
  obtain ⟨p, q, rfl⟩ : ∃ (p : Fin 4000) (q : Fin 40), j = ix2 p q := ⟨j 0, j 1, eq_ix2 j⟩
  unfold k1_pay1 logSoftmaxLayer
  refine (logSoftmaxTail_apply _ 0xFF800000#32 _ _ _ _ _ _ p q).trans ?_
  refine congrArg (fun r => logSoftmaxRow (Ideal.ofBits .f32 0xFF800000#32) r q) (funext fun j => ?_)
  refine (normTail_apply _ 0x2B8CBCCC#32 _ _ _ _ _ p j).trans ?_
  refine congrArg (fun r => normRow (Ideal.ofBits .f32 0x2B8CBCCC#32) r j) (funext fun j' => ?_)
  exact devicePre_apply _ _ rfl x0 x2 x7 x9 x11 x16 _ _ _ _ _ _ _ _ _ p j'

end Cert.KernelIdeal.Body

end
-- ==== Proof.RegionValue.lean ====
/-
  FROM BLOCKS TO ARRAYS. Each of the two pallas_calls walks 25 grid points; point t stages rows 4000 t .. 4000 t + 3999
  of the neighbour sums, of the self features and of the reciprocal-degree column, the whole weight matrices and the
  whole bias, and writes back rows 4000 t .. 4000 t + 3999 of its result. Entry (p, q) of a layer depends on row p only,
  so what point t writes back is block t of ONE function of the whole arrays the region finds, and the 25 blocks cover
  the result array: after the region the result array is that function.
-/
import proofs.«167643_j22411139350784_2_alg».proof.Proof.Gen.KernelIdeal.Frame
import proofs.«167643_j22411139350784_2_alg».proof.Proof.KernelBody
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first region -/

/-- What the first region leaves in its result array: the rectified layer of the arrays it finds. -/
def hidden (c : Dev nD) : S100000x128.Idx → EReal :=
  reluLayer (Ideal.ofBits .f32 0x00000000#32) (Ideal.ofBits .f32 0x2B8CBCCC#32)
    (V c main_v28 : S100000x128.Idx → EReal) (V c main_v17 : S100000x128.Idx → EReal)
    (V c main_v12 : S100000x1.Idx → EReal) (V c main_v13 : S128x128.Idx → EReal)
    (V c main_v14 : S128x128.Idx → EReal) (V c main_arg3 : S128.Idx → EReal)

/-- The printed index maps over the 25 points: the three row-blocked inputs move with the output along the rows and
    stay at column block 0; the weights and the bias stay at block 0. -/
theorem idx0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every row block is some point's. -/
theorem onto0 : ∀ q0 : Fin 25, ∃ t : Fin cfg0.N, win0_6.index t = ![q0.val, 0] :=
  (by decide +kernel : ∀ q0 : Fin 25, ∃ t : Fin grid0.N, win0_6.index t = ![q0.val, 0])

/-- What point t writes back is block t of the rectified layer of the whole arrays. -/
theorem flushed0 (c : Dev nD) (t : Fin cfg0.N) :
    (dat0 V c).flushed 6 t = ((cfg0.win 6).blk t).view.read (Elt Ideal) (hidden V c) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S4000x1) hz2,
    View.ld_unit_zero (S := S128x128) hz2, View.ld_unit_zero (S := S128) hz1]
  obtain ⟨e00, e01, e10, e11, e20, e21, e30, e31, e40, e50, e51, e61, e6b⟩ := idx0 t
  refine (Body.pay0_eq (iblk0 V c 0 t) (iblk0 V c 2 t) (iblk0 V c 1 t) (iblk0 V c 3 t) (iblk0 V c 5 t) (iblk0 V c 4 t)).trans ?_
  funext j
  obtain ⟨r, q, rfl⟩ : ∃ (r : Fin 4000) (q : Fin 128), j = ix2 r q := ⟨j 0, j 1, eq_ix2 j⟩
  show _ = hidden V c (((cfg0.win 6).blk t).view.emb (ix2 r q))
  unfold hidden reluLayer
  refine congrArg₂ (fun f a => reluRow (Ideal.ofBits .f32 0x00000000#32) (normRow (Ideal.ofBits .f32 0x2B8CBCCC#32) f) a)
    (funext fun q' => ?_) (Fin.ext ?_)
  · apply preMul_congr
    · intro k
      show V c main_v28 (((cfg0.win 0).blk t).view.emb (ix2 r k)) = V c main_v28 (ix2 _ k)
      refine congrArg (V c main_v28) (funext fun a => Fin.ext ?_)
      match a with
      | ⟨0, _⟩ => show win0_0.index t (0 : Fin 2) * 4000 + 1 * r.val = win0_6.index t (0 : Fin 2) * 4000 + 1 * r.val; omega
      | ⟨1, _⟩ => show win0_0.index t (1 : Fin 2) * 128 + 1 * k.val = k.val; omega
    · intro k
      show V c main_v17 (((cfg0.win 1).blk t).view.emb (ix2 r k)) = V c main_v17 (ix2 _ k)
      refine congrArg (V c main_v17) (funext fun a => Fin.ext ?_)
      match a with
      | ⟨0, _⟩ => show win0_1.index t (0 : Fin 2) * 4000 + 1 * r.val = win0_6.index t (0 : Fin 2) * 4000 + 1 * r.val; omega
      | ⟨1, _⟩ => show win0_1.index t (1 : Fin 2) * 128 + 1 * k.val = k.val; omega
    · show V c main_v12 (((cfg0.win 2).blk t).view.emb (ix2 r (0 : Fin 1))) = V c main_v12 (ix2 _ (0 : Fin 1))
      refine congrArg (V c main_v12) (funext fun a => Fin.ext ?_)
      match a with
      | ⟨0, _⟩ => show win0_2.index t (0 : Fin 2) * 4000 + 1 * r.val = win0_6.index t (0 : Fin 2) * 4000 + 1 * r.val; omega
      | ⟨1, _⟩ => show win0_2.index t (1 : Fin 2) * 1 + 1 * 0 = 0; omega
    · funext y
      show V c main_v13 (((cfg0.win 3).blk t).view.emb y) = V c main_v13 y
      refine congrArg (V c main_v13) (funext fun a => Fin.ext ?_)
      match a with
      | ⟨0, _⟩ => show win0_3.index t (0 : Fin 2) * 128 + 1 * (y 0).val = (y 0).val; omega
      | ⟨1, _⟩ => show win0_3.index t (1 : Fin 2) * 128 + 1 * (y 1).val = (y 1).val; omega
    · funext y
      show V c main_v14 (((cfg0.win 5).blk t).view.emb y) = V c main_v14 y
      refine congrArg (V c main_v14) (funext fun a => Fin.ext ?_)
      match a with
      | ⟨0, _⟩ => show win0_5.index t (0 : Fin 2) * 128 + 1 * (y 0).val = (y 0).val; omega
      | ⟨1, _⟩ => show win0_5.index t (1 : Fin 2) * 128 + 1 * (y 1).val = (y 1).val; omega
    · funext y
      show V c main_arg3 (((cfg0.win 4).blk t).view.emb y) = V c main_arg3 y
      refine congrArg (V c main_arg3) (funext fun a => Fin.ext ?_)
      match a with
      | ⟨0, _⟩ => show win0_4.index t (0 : Fin 1) * 128 + 1 * (y 0).val = (y 0).val; omega
  · show q.val = win0_6.index t (1 : Fin 2) * 128 + 1 * q.val
    omega

/-- An index of the result array is in point t's block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v29).slice (win0_6.rect t)).set ↔ _
  rw [View.set_slice_whole, Rect.mem_set_unit]
  exact Iff.rfl

/-- Row p lies in the block of the point whose row-block index is p / 4000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := onto0 ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- After the first region its result array is the rectified layer of the arrays the region found. -/
theorem final0 (c : Dev nD) : (dat0 V c).arrAt 6 cfg0.N = hidden V c :=
  (dat0 V c).arrAt_eq_of_cover 6 (hidden V c) (fun t _ => flushed0 V c t) cover0

/-! ## The second region -/

/-- What the second region leaves in its result array: the log-softmax layer of the arrays it finds. -/
def output (c : Dev nD) : S100000x40.Idx → EReal :=
  logSoftmaxLayer (Ideal.ofBits .f32 0xFF800000#32) (Ideal.ofBits .f32 0x2B8CBCCC#32)
    (V c main_v40 : S100000x128.Idx → EReal) (V c main_v29 : S100000x128.Idx → EReal)
    (V c main_v12 : S100000x1.Idx → EReal) (V c main_v15 : S128x40.Idx → EReal)
    (V c main_v16 : S128x40.Idx → EReal) (V c main_arg6 : S40.Idx → EReal)

/-- The printed index maps of the second call over its 25 points: as in the first. -/
theorem idx1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

/-- Every row block is some point's. -/
theorem onto1 : ∀ q0 : Fin 25, ∃ t : Fin cfg1.N, win1_6.index t = ![q0.val, 0] :=
  (by decide +kernel : ∀ q0 : Fin 25, ∃ t : Fin grid1.N, win1_6.index t = ![q0.val, 0])

/-- What point t writes back is block t of the log-softmax layer of the whole arrays. -/
theorem flushed1 (c : Dev nD) (t : Fin cfg1.N) :
    (dat1 V c).flushed 6 t = ((cfg1.win 6).blk t).view.read (Elt Ideal) (output V c) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S4000x1) hz2,
    View.ld_unit_zero (S := S128x40) hz2, View.ld_unit_zero (S := S40) hz1]
  obtain ⟨e00, e01, e10, e11, e20, e21, e30, e31, e40, e50, e51, e61, e6b⟩ := idx1 t
  refine (Body.pay1_eq (iblk1 V c 0 t) (iblk1 V c 2 t) (iblk1 V c 1 t) (iblk1 V c 3 t) (iblk1 V c 5 t) (iblk1 V c 4 t)).trans ?_
  funext j
  obtain ⟨r, q, rfl⟩ : ∃ (r : Fin 4000) (q : Fin 40), j = ix2 r q := ⟨j 0, j 1, eq_ix2 j⟩
  show _ = output V c (((cfg1.win 6).blk t).view.emb (ix2 r q))
  unfold output logSoftmaxLayer
  refine congrArg₂ (fun f a => logSoftmaxRow (Ideal.ofBits .f32 0xFF800000#32) (normRow (Ideal.ofBits .f32 0x2B8CBCCC#32) f) a)
    (funext fun q' => ?_) (Fin.ext ?_)
  · apply preMul_congr
    · intro k
      show V c main_v40 (((cfg1.win 0).blk t).view.emb (ix2 r k)) = V c main_v40 (ix2 _ k)
      refine congrArg (V c main_v40) (funext fun a => Fin.ext ?_)
      match a with
      | ⟨0, _⟩ => show win1_0.index t (0 : Fin 2) * 4000 + 1 * r.val = win1_6.index t (0 : Fin 2) * 4000 + 1 * r.val; omega
      | ⟨1, _⟩ => show win1_0.index t (1 : Fin 2) * 128 + 1 * k.val = k.val; omega
    · intro k
      show V c main_v29 (((cfg1.win 1).blk t).view.emb (ix2 r k)) = V c main_v29 (ix2 _ k)
      refine congrArg (V c main_v29) (funext fun a => Fin.ext ?_)
      match a with
      | ⟨0, _⟩ => show win1_1.index t (0 : Fin 2) * 4000 + 1 * r.val = win1_6.index t (0 : Fin 2) * 4000 + 1 * r.val; omega
      | ⟨1, _⟩ => show win1_1.index t (1 : Fin 2) * 128 + 1 * k.val = k.val; omega
    · show V c main_v12 (((cfg1.win 2).blk t).view.emb (ix2 r (0 : Fin 1))) = V c main_v12 (ix2 _ (0 : Fin 1))
      refine congrArg (V c main_v12) (funext fun a => Fin.ext ?_)
      match a with
      | ⟨0, _⟩ => show win1_2.index t (0 : Fin 2) * 4000 + 1 * r.val = win1_6.index t (0 : Fin 2) * 4000 + 1 * r.val; omega
      | ⟨1, _⟩ => show win1_2.index t (1 : Fin 2) * 1 + 1 * 0 = 0; omega
    · funext y
      show V c main_v15 (((cfg1.win 3).blk t).view.emb y) = V c main_v15 y
      refine congrArg (V c main_v15) (funext fun a => Fin.ext ?_)
      match a with
      | ⟨0, _⟩ => show win1_3.index t (0 : Fin 2) * 128 + 1 * (y 0).val = (y 0).val; omega
      | ⟨1, _⟩ => show win1_3.index t (1 : Fin 2) * 40 + 1 * (y 1).val = (y 1).val; omega
    · funext y
      show V c main_v16 (((cfg1.win 5).blk t).view.emb y) = V c main_v16 y
      refine congrArg (V c main_v16) (funext fun a => Fin.ext ?_)
      match a with
      | ⟨0, _⟩ => show win1_5.index t (0 : Fin 2) * 128 + 1 * (y 0).val = (y 0).val; omega
      | ⟨1, _⟩ => show win1_5.index t (1 : Fin 2) * 40 + 1 * (y 1).val = (y 1).val; omega
    · funext y
      show V c main_arg6 (((cfg1.win 4).blk t).view.emb y) = V c main_arg6 y
      refine congrArg (V c main_arg6) (funext fun a => Fin.ext ?_)
      match a with
      | ⟨0, _⟩ => show win1_4.index t (0 : Fin 1) * 40 + 1 * (y 0).val = (y 0).val; omega
  · show q.val = win1_6.index t (1 : Fin 2) * 40 + 1 * q.val
    omega

/-- An index of the result array is in point t's block iff each coordinate is in the block's range on its axis. -/
theorem mem_blk1 (t : Fin cfg1.N) (i : S100000x40.Idx) :
    i ∈ ((cfg1.win 6).blk t).view.set ↔ ∀ a : Fin 2, win1_6.index t a * S4000x40.size a ≤ (i a).val
      ∧ (i a).val < win1_6.index t a * S4000x40.size a + S4000x40.size a := by
  show i ∈ ((View.whole main_v41).slice (win1_6.rect t)).set ↔ _
  rw [View.set_slice_whole, Rect.mem_set_unit]
  exact Iff.rfl

/-- Row p lies in the block of the point whose row-block index is p / 4000. -/
theorem cover1 (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ := onto1 ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 40 ≤ (i 1).val ∧ (i 1).val < win1_6.index t (1 : Fin 2) * 40 + 40
    omega

/-- After the second region its result array is the log-softmax layer of the arrays the region found. -/
theorem final1 (c : Dev nD) : (dat1 V c).arrAt 6 cfg1.N = output V c :=
  (dat1 V c).arrAt_eq_of_cover 6 (output V c) (fun t _ => flushed1 V c t) cover1

end Cert.KernelIdeal.RegionValue

end
-- ==== Proof.KernelRun.lean ====
/-
  The idealized kernel's run with its result named. The program is two regions among stretches of host operations;
  after the last region every unscoped buffer holds the last boundary's contents, so the result array is that
  boundary's contents at the result's buffer, and each argument is as launched.
-/
import proofs.«167643_j22411139350784_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the contents the last region
    leaves in it and the arguments as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KernelValue.lean ====
/-
  WHAT EACH REGION FINDS IN ITS ARRAYS. Before the first pallas_call the host slices the edge array into its source
  and destination rows, counts the edges arriving at each node (a scatter-add of ones), clamps the count below by one
  and takes its reciprocal as a column, and forms the neighbour sums: gather the features at the sources (negative
  sources shifted by the node count), scatter-add them at the destinations into zeros. Between the calls it forms the
  neighbour sums of the first call's result the same way. Every format change is the identity on the extended reals.
-/
import proofs.«167643_j22411139350784_2_alg».proof.Proof.Gen.KernelIdeal.Frame
import proofs.«167643_j22411139350784_2_alg».proof.Proof.RegionValue
import proofs.«167643_j22411139350784_2_alg».proof.Proof.KernelRun
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Cert.Sage Cert.KernelIdeal.RegionValue

abbrev Edges := (⟨S2x1600000, .i32⟩ : BufTy).Contents (Elt Ideal)
abbrev Feat := (⟨S100000x128, .f32⟩ : BufTy).Contents (Elt Ideal)

/-- The source node of every edge. -/
def srcRow (e : Edges) : (⟨S1600000, .i32⟩ : BufTy).Contents (Elt Ideal) :=
  shapeCast S1600000 (extractStridedSlice S1x1600000 ![0, 0] e slices_S2x1600000_S1x1600000_0_0) shapeCasts_S1x1600000_S1600000

/-- The destination node of every edge. -/
def dstRow (e : Edges) : (⟨S1600000, .i32⟩ : BufTy).Contents (Elt Ideal) :=
  shapeCast S1600000 (extractStridedSlice S1x1600000 ![1, 0] e slices_S2x1600000_S1x1600000_1_0) shapeCasts_S1x1600000_S1600000

/-- The sources as the gather's index column: a negative source is shifted by the node count. -/
def srcCol (e : Edges) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The destinations as the scatter's index column. -/
def dstCol (e : Edges) : (⟨S1600000x1, .i32⟩ : BufTy).Contents (Elt Ideal) :=
  broadcastInDim S1600000x1 ![0] bcast_S1600000_S1600000x1_0 (dstRow e)

/-- The neighbour sums of a feature array: its rows gathered at the sources, scatter-added at the destinations. -/
def aggregate (e : Edges) (f : Feat) : Feat :=
  Host.scatterAdd (F := Ideal) scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 f (srcCol e))

/-- Each node's in-degree, clamped below by one. -/
def clampedDeg (e : Edges) : (⟨S100000, .f32⟩ : BufTy).Contents (Elt Ideal) :=
  maximumf
    (Host.scatterAdd (F := Ideal) scatter_S100000_S1600000x1_S1600000_n_0_0_1
      (broadcastInDim S100000 ![] bcast_S_S100000 (constant (F := Ideal) S_ .f32 0x00000000#32)) (dstCol e)
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped degree, as a column. -/
def recipDeg (e : Edges) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32)) (clampedDeg e))

variable (m : (ℓ : Loc nD τ sig) → Buf (Elt Ideal) ℓ) (ρ : Dev nD → PrngReg)

/-! ## At the first region's entry -/

theorem entry0_sums (c : Dev nD) :
    V1 m ρ c main_v28 = aggregate (m ((c : Thread nD τ).loc main_arg1)) (m ((c : Thread nD τ).loc main_arg0)) := by
  show StableHlo.after hostOps0 (W0 m ρ c) (Proc.devRef .tc main_v28) = _
  dsimp only [hostOps0]
  after_results_simp <;> rfl

theorem entry0_self (c : Dev nD) : V1 m ρ c main_v17 = m ((c : Thread nD τ).loc main_arg0) := by
  show StableHlo.after hostOps0 (W0 m ρ c) (Proc.devRef .tc main_v17) = _
  dsimp only [hostOps0]
  after_results_simp <;> rfl

theorem entry0_recip (c : Dev nD) : V1 m ρ c main_v12 = recipDeg (m ((c : Thread nD τ).loc main_arg1)) := by
  show StableHlo.after hostOps0 (W0 m ρ c) (Proc.devRef .tc main_v12) = _
  dsimp only [hostOps0]
  after_results_simp <;> rfl

theorem entry0_wl (c : Dev nD) : V1 m ρ c main_v13 = m ((c : Thread nD τ).loc main_arg2) := by
  show StableHlo.after hostOps0 (W0 m ρ c) (Proc.devRef .tc main_v13) = _
  dsimp only [hostOps0]
  after_results_simp <;> rfl

theorem entry0_wr (c : Dev nD) : V1 m ρ c main_v14 = m ((c : Thread nD τ).loc main_arg4) := by
  show StableHlo.after hostOps0 (W0 m ρ c) (Proc.devRef .tc main_v14) = _
  dsimp only [hostOps0]
  after_results_simp <;> rfl

theorem entry0_bias (c : Dev nD) : V1 m ρ c main_arg3 = m ((c : Thread nD τ).loc main_arg3) := by
  show StableHlo.after hostOps0 (W0 m ρ c) (Proc.devRef .tc main_arg3) = _
  dsimp only [hostOps0]
  after_results_simp <;> rfl

/-- The first layer's output, as a function of the arguments: the rectified layer of the neighbour sums of the
    features, the features, the reciprocal-degree column, the first layer's weights and bias. -/
def hiddenOf (e : Edges) (x : Feat) (wl wr : (⟨S128x128, .f32⟩ : BufTy).Contents (Elt Ideal))
    (b : (⟨S128, .f32⟩ : BufTy).Contents (Elt Ideal)) : Feat :=
  reluLayer (Ideal.ofBits .f32 0x00000000#32) (Ideal.ofBits .f32 0x2B8CBCCC#32) (aggregate e x) x (recipDeg e) wl wr b

/-- After the first region its result array is the first layer's output of the arguments. -/
theorem hidden_eq (c : Dev nD) :
    RegionValue.hidden (V1 m ρ) c = hiddenOf (m ((c : Thread nD τ).loc main_arg1)) (m ((c : Thread nD τ).loc main_arg0))
      (m ((c : Thread nD τ).loc main_arg2)) (m ((c : Thread nD τ).loc main_arg4)) (m ((c : Thread nD τ).loc main_arg3)) := by
  unfold RegionValue.hidden hiddenOf
  rw [entry0_sums, entry0_self, entry0_recip, entry0_wl, entry0_wr, entry0_bias]

/-! ## At the second region's entry -/

/-- What the first region leaves in its result array. -/
theorem exit0_hidden (c : Dev nD) : W2 m ρ c (Proc.devRef .tc main_v29) = RegionValue.hidden (V1 m ρ) c :=
  (W2_arr m ρ c 6).trans (final0 (V1 m ρ) c)

/-- The reciprocal-degree column is an input of the first region: it leaves it as it found it. -/
theorem exit0_recip (c : Dev nD) : W2 m ρ c (Proc.devRef .tc main_v12) = V1 m ρ c main_v12 :=
  (W2_arr m ρ c 2).trans (((dat0 (V1 m ρ) c).arrAt_in 2 rfl _).trans (A_eq0 (V1 m ρ) c 2))

theorem entry1_self (c : Dev nD) : V3 m ρ c main_v29 = RegionValue.hidden (V1 m ρ) c := by
  show StableHlo.after hostOps1 (W2 m ρ c) (Proc.devRef .tc main_v29) = _
  dsimp only [hostOps1]
  after_results_simp
  exact exit0_hidden m ρ c

theorem entry1_recip (c : Dev nD) : V3 m ρ c main_v12 = recipDeg (m ((c : Thread nD τ).loc main_arg1)) := by
  show StableHlo.after hostOps1 (W2 m ρ c) (Proc.devRef .tc main_v12) = _
  dsimp only [hostOps1]
  after_results_simp
  exact (exit0_recip m ρ c).trans (entry0_recip m ρ c)

/-- The source row, computed before the first region, is not one of its arrays. -/
theorem exit0_src (c : Dev nD) : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    dsimp only [hostOps0]
    after_results_simp <;> rfl)

theorem exit0_dst (c : Dev nD) : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    dsimp only [hostOps0]
    after_results_simp <;> rfl)

theorem exit0_wl2 (c : Dev nD) : W2 m ρ c (Proc.devRef .tc main_v15) = m ((c : Thread nD τ).loc main_arg5) :=
  (W2_of_ne m ρ c main_v15 (by decide)).trans (by
    show StableHlo.after hostOps0 (W0 m ρ c) (Proc.devRef .tc main_v15) = _
    dsimp only [hostOps0]
    after_results_simp <;> rfl)

theorem exit0_wr2 (c : Dev nD) : W2 m ρ c (Proc.devRef .tc main_v16) = m ((c : Thread nD τ).loc main_arg7) :=
  (W2_of_ne m ρ c main_v16 (by decide)).trans (by
    show StableHlo.after hostOps0 (W0 m ρ c) (Proc.devRef .tc main_v16) = _
    dsimp only [hostOps0]
    after_results_simp <;> rfl)

theorem exit0_bias2 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    dsimp only [hostOps0]
    after_results_simp <;> rfl)

theorem entry1_sums (c : Dev nD) :
    V3 m ρ c main_v40 = aggregate (m ((c : Thread nD τ).loc main_arg1)) (RegionValue.hidden (V1 m ρ) c) := by
  show StableHlo.after hostOps1 (W2 m ρ c) (Proc.devRef .tc main_v40) = _
  dsimp only [hostOps1]
  after_results_simp
  rw [exit0_hidden, exit0_src, exit0_dst]
  rfl

theorem entry1_wl (c : Dev nD) : V3 m ρ c main_v15 = m ((c : Thread nD τ).loc main_arg5) := by
  show StableHlo.after hostOps1 (W2 m ρ c) (Proc.devRef .tc main_v15) = _
  dsimp only [hostOps1]
  after_results_simp
  exact exit0_wl2 m ρ c

theorem entry1_wr (c : Dev nD) : V3 m ρ c main_v16 = m ((c : Thread nD τ).loc main_arg7) := by
  show StableHlo.after hostOps1 (W2 m ρ c) (Proc.devRef .tc main_v16) = _
  dsimp only [hostOps1]
  after_results_simp
  exact exit0_wr2 m ρ c

theorem entry1_bias (c : Dev nD) : V3 m ρ c main_arg6 = m ((c : Thread nD τ).loc main_arg6) := by
  show StableHlo.after hostOps1 (W2 m ρ c) (Proc.devRef .tc main_arg6) = _
  dsimp only [hostOps1]
  after_results_simp
  exact exit0_bias2 m ρ c

/-! ## The kernel's result -/

/-- The kernel's result as a function of the arguments: the log-softmax layer of the neighbour sums of the first
    layer's output, that output, the reciprocal-degree column, the second layer's weights and bias. -/
def resultOf (e : Edges) (x : Feat) (wl1 wr1 : (⟨S128x128, .f32⟩ : BufTy).Contents (Elt Ideal))
    (b1 : (⟨S128, .f32⟩ : BufTy).Contents (Elt Ideal)) (wl2 wr2 : (⟨S128x40, .f32⟩ : BufTy).Contents (Elt Ideal))
    (b2 : (⟨S40, .f32⟩ : BufTy).Contents (Elt Ideal)) : (⟨S100000x40, .f32⟩ : BufTy).Contents (Elt Ideal) :=
  logSoftmaxLayer (Ideal.ofBits .f32 0xFF800000#32) (Ideal.ofBits .f32 0x2B8CBCCC#32)
    (aggregate e (hiddenOf e x wl1 wr1 b1)) (hiddenOf e x wl1 wr1 b1) (recipDeg e) wl2 wr2 b2

/-- After the second region the result array is that function of the arguments. -/
theorem result_eq (c : Dev nD) :
    W4 m ρ c (Proc.devRef .tc main_v41) = resultOf (m ((c : Thread nD τ).loc main_arg1)) (m ((c : Thread nD τ).loc main_arg0))
      (m ((c : Thread nD τ).loc main_arg2)) (m ((c : Thread nD τ).loc main_arg4)) (m ((c : Thread nD τ).loc main_arg3))
      (m ((c : Thread nD τ).loc main_arg5)) (m ((c : Thread nD τ).loc main_arg7)) (m ((c : Thread nD τ).loc main_arg6)) :=
  (W4_arr m ρ c 6).trans ((final1 (V3 m ρ) c).trans (by
    unfold RegionValue.output resultOf
    rw [entry1_sums, entry1_self, entry1_recip, entry1_wl, entry1_wr, entry1_bias, hidden_eq]))

/-- Every weakly fair execution of the idealized kernel terminates, nothing faulting, with the result array at that
    function of the arguments and the arguments as launched. -/
theorem run : θ_run defs (onTc (τ := τ) (main (F := Ideal))) ⟨m, fun _ => 0, ρ⟩ (fun r => ∀ c : Dev nD,
      r.2.mem ((c.tc : Thread nD τ).loc main_v41) = resultOf (m ((c.tc : Thread nD τ).loc main_arg1)) (m ((c.tc : Thread nD τ).loc main_arg0))
        (m ((c.tc : Thread nD τ).loc main_arg2)) (m ((c.tc : Thread nD τ).loc main_arg4)) (m ((c.tc : Thread nD τ).loc main_arg3))
        (m ((c.tc : Thread nD τ).loc main_arg5)) (m ((c.tc : Thread nD τ).loc main_arg7)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunValue.run_result m ρ)

end Cert.KernelIdeal.Entry

end
-- ==== Proof.LibHostLayer.lean ====
/-
  THE HOST'S SPELLING OF ONE GRAPH-CONVOLUTION LAYER ON WHOLE ARRAYS, READ AT AN INDEX.

  On the host the same layer is spelt with broadcast_in_dim (a vector placed as a column, a column spread over the
  columns, a scalar spread over a whole array), dot_general, a reduce with an add or a maximum body over the last
  axis, and the elementwise quotient, square root, exponential and logarithm. Read at (p, q) each is the row formula of
  the specification, in the arrangement that takes the mean as a quotient by the clamped degree and adds the bias
  before the self term. The host's row sum starts from its initial value, here the zero word; the host's row maximum
  is taken once more against the value it was folded from, which changes nothing. Generic in the three extents.
-/
import Idealize.ShloMosaic.PureOps.Ideal.Laws
import Idealize.ShloMosaic.Lib.ValueIdx
import Idealize.ShloMosaic.Lib.Pipeline.Value
import proofs.«167643_j22411139350784_2_alg».proof.Proof.LibMatOps
import proofs.«167643_j22411139350784_2_alg».proof.Proof.LibRowOps
import proofs.«167643_j22411139350784_2_alg».proof.Proof.SageSpec

noncomputable section

open scoped BigOperators

namespace Cert.SageHost

open Idealize.ShloMosaic Idealize.ShloMosaic.ValueIdx Cert.Sage Cert.MatOps

variable {N D C : ℕ}

/-- A vector [a] placed as the column [a, 1] reads, at (p, z), its entry p. -/
theorem hostColumn_apply {α : Type} {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) :=
  broadcastInDim_apply ![0] h v (ix2 p z) (ix1 p) (fun d => match d with
    | ⟨0, _⟩ => by
        show p.val = if a = 1 then 0 else p.val
        split
        · have := p.isLt; omega
        · rfl)

/-- A scalar constant spread over a whole array reads the constant's value everywhere. -/
theorem hostScalar_apply {s : Shape} (φ : FTy) (w : BitVec φ.bits)
    (h : (⟨0, ![]⟩ : Shape).BroadcastsInDim s (![] : Fin 0 → Fin s.rank)) (i : s.Idx) :
    broadcastInDim s (![] : Fin 0 → Fin s.rank) h (constant (F := Ideal) ⟨0, ![]⟩ φ w) i = Ideal.ofBits φ w :=
  broadcastInDim_apply (![] : Fin 0 → Fin s.rank) h (constant (F := Ideal) ⟨0, ![]⟩ φ w) i ix0 (fun d => d.elim0)

/-- The host's sum over the last axis of an [N, C] array, at row p: the initial value plus the sum over the row. -/
theorem hostRowSum_apply (v : FVec Ideal ⟨2, ![N, C]⟩ .f32) (init : (⟨0, ![]⟩ : Shape).Idx → Ideal .f32)
    (h' : (⟨2, ![N, C]⟩ : Shape).ReducesTo [1] ⟨1, ![N]⟩) (h : (⟨2, ![N, C]⟩ : Shape).Reduces [1] ⟨1, ![N]⟩)
    (hu : 0 < (⟨0, ![]⟩ : Shape).numel) (p : Fin N) :
    Host.reduceAdd (F := Ideal) v init h' hu (ix1 p) = init (Shape.Idx.first hu) + ∑ k : Fin C, v (ix2 p k) := by
  simp only [Host.reduceAdd, Ideal.hostReduceAdd_def]
  rw [Ideal.hostReduceAdd_single h' h]
  refine congrArg (_ + ·) (Finset.sum_congr rfl fun k _ => ?_)
  exact congrArg v (funext fun a => Fin.ext (by
    match a with
    | ⟨0, _⟩ => rfl
    | ⟨1, _⟩ => rfl))

/-- The host's maximum over the last axis, at row p: the row's maximum folded from the initial value. -/
theorem hostRowMax_apply (v : FVec Ideal ⟨2, ![N, C]⟩ .f32) (init : (⟨0, ![]⟩ : Shape).Idx → Ideal .f32)
    (h' : (⟨2, ![N, C]⟩ : Shape).ReducesTo [1] ⟨1, ![N]⟩) (h : (⟨2, ![N, C]⟩ : Shape).Reduces [1] ⟨1, ![N]⟩)
    (hu : 0 < (⟨0, ![]⟩ : Shape).numel) (p : Fin N) :
    Host.reduce FloatOps.maximumf v init h' hu (ix1 p)
      = (Finset.univ : Finset (Fin C)).fold max (init (Shape.Idx.first hu)) (fun k => v (ix2 p k)) := by
  rw [Host.reduce_eq_fold_single FloatOps.maximumf v _ h' h hu]
  exact congrArg (fun f => (Finset.univ : Finset (Fin C)).fold max (init (Shape.Idx.first hu)) f)
    (funext fun k => congrArg v (funext fun a => Fin.ext (by
      match a with
      | ⟨0, _⟩ => rfl
      | ⟨1, _⟩ => rfl)))

/-- The host's pre-activation at (p, q): the quotient arrangement. -/
theorem hostPre_apply
    (d : DotDims ⟨2, ![N, D]⟩ ⟨2, ![D, C]⟩ ⟨2, ![N, C]⟩)
    (wf : DotDims.WF ⟨2, ![N, D]⟩ ⟨2, ![D, C]⟩ ⟨2, ![N, C]⟩ [1] [0] [0] [1] [] [])
    (hd : d = plainDot N D C wf)
    (S X : FVec Ideal ⟨2, ![N, D]⟩ .f32) (dm : FVec Ideal ⟨1, ![N]⟩ .f32)
    (Wl Wr : FVec Ideal ⟨2, ![D, C]⟩ .f32) (b : FVec Ideal ⟨1, ![C]⟩ .f32)
    (h20 : (⟨1, ![N]⟩ : Shape).BroadcastsInDim ⟨2, ![N, 1]⟩ ![0])
    (h21 : (⟨2, ![N, 1]⟩ : Shape).BroadcastsInDim ⟨2, ![N, D]⟩ ![0, 1])
    (h24 : (⟨1, ![C]⟩ : Shape).BroadcastsInDim ⟨2, ![1, C]⟩ ![1])
    (h25 : (⟨2, ![1, C]⟩ : Shape).BroadcastsInDim ⟨2, ![N, C]⟩ ![0, 1])
    (p : Fin N) (q : Fin C) :
    addf (addf (Host.dotGeneral d none
                  (Host.divf (F := Ideal) S (broadcastInDim ⟨2, ![N, D]⟩ ![0, 1] h21 (broadcastInDim ⟨2, ![N, 1]⟩ ![0] h20 dm))) Wl)
               (broadcastInDim ⟨2, ![N, C]⟩ ![0, 1] h25 (broadcastInDim ⟨2, ![1, C]⟩ ![1] h24 b)))
         (Host.dotGeneral d none X Wr) (ix2 p q)
      = preDiv S X dm Wl Wr b p q := by
  subst hd
  show FloatOps.dotGeneral (plainDot N D C wf) none .single
          (Host.divf (F := Ideal) S (broadcastInDim ⟨2, ![N, D]⟩ ![0, 1] h21 (broadcastInDim ⟨2, ![N, 1]⟩ ![0] h20 dm))) Wl (ix2 p q)
        + broadcastInDim ⟨2, ![N, C]⟩ ![0, 1] h25 (broadcastInDim ⟨2, ![1, C]⟩ ![1] h24 b) (ix2 p q)
        + FloatOps.dotGeneral (plainDot N D C wf) none .single X Wr (ix2 p q) = _
  rw [dotGeneral_plain_apply wf, dotGeneral_plain_apply wf, Cert.RowOps.hostRowSpread_apply]
  unfold preDiv
  refine congrArg (· + _) (congrArg (· + _) (Finset.sum_congr rfl fun k _ => ?_))
  show Ideal.div (S (ix2 p k)) (broadcastInDim ⟨2, ![N, D]⟩ ![0, 1] h21 (broadcastInDim ⟨2, ![N, 1]⟩ ![0] h20 dm) (ix2 p k)) * Wl (ix2 k q) = _
  rw [Cert.RowOps.hostColSpread_apply, hostColumn_apply]

/-- The host's row divided by its clamped norm. -/
theorem hostNormTail_apply (v : FVec Ideal ⟨2, ![N, C]⟩ .f32) (e : BitVec 32)
    (h' : (⟨2, ![N, C]⟩ : Shape).ReducesTo [1] ⟨1, ![N]⟩) (h : (⟨2, ![N, C]⟩ : Shape).Reduces [1] ⟨1, ![N]⟩)
    (hu : 0 < (⟨0, ![]⟩ : Shape).numel)
    (hc : (⟨1, ![N]⟩ : Shape).BroadcastsInDim ⟨2, ![N, 1]⟩ ![0])
    (he : (⟨0, ![]⟩ : Shape).BroadcastsInDim ⟨2, ![N, 1]⟩ (![] : Fin 0 → Fin 2))
    (hb : (⟨2, ![N, 1]⟩ : Shape).BroadcastsInDim ⟨2, ![N, C]⟩ ![0, 1])
    (p : Fin N) (q : Fin C) :
    Host.divf (F := Ideal) v (broadcastInDim ⟨2, ![N, C]⟩ ![0, 1] hb
      (maximumf (Host.sqrt (F := Ideal) (broadcastInDim ⟨2, ![N, 1]⟩ ![0] hc
          (Host.reduceAdd (F := Ideal) (mulf v v) (constant (F := Ideal) ⟨0, ![]⟩ .f32 0x00000000#32) h' hu)))
        (broadcastInDim ⟨2, ![N, 1]⟩ (![] : Fin 0 → Fin 2) he (constant (F := Ideal) ⟨0, ![]⟩ .f32 e)))) (ix2 p q)
      = normRow (Ideal.ofBits .f32 e) (fun j => v (ix2 p j)) q := by
  show Ideal.div (v (ix2 p q)) (broadcastInDim ⟨2, ![N, C]⟩ ![0, 1] hb
      (maximumf (Host.sqrt (F := Ideal) (broadcastInDim ⟨2, ![N, 1]⟩ ![0] hc
          (Host.reduceAdd (F := Ideal) (mulf v v) (constant (F := Ideal) ⟨0, ![]⟩ .f32 0x00000000#32) h' hu)))
        (broadcastInDim ⟨2, ![N, 1]⟩ (![] : Fin 0 → Fin 2) he (constant (F := Ideal) ⟨0, ![]⟩ .f32 e))) (ix2 p q)) = _
  rw [Cert.RowOps.hostColSpread_apply]
  show Ideal.div (v (ix2 p q)) (max (Ideal.sqrt (broadcastInDim ⟨2, ![N, 1]⟩ ![0] hc
          (Host.reduceAdd (F := Ideal) (mulf v v) (constant (F := Ideal) ⟨0, ![]⟩ .f32 0x00000000#32) h' hu) (ix2 p (0 : Fin 1))))
        (broadcastInDim ⟨2, ![N, 1]⟩ (![] : Fin 0 → Fin 2) he (constant (F := Ideal) ⟨0, ![]⟩ .f32 e) (ix2 p (0 : Fin 1)))) = _
  rw [hostColumn_apply, hostRowSum_apply _ _ h' h hu, hostScalar_apply]
  show Ideal.div _ (max (Ideal.sqrt (Ideal.ofBits .f32 0x00000000#32 + _)) _) = _
  rw [Ideal.ofBits_zero_f32, zero_add]
  rfl

/-- The host's rectifier against a scalar constant. -/
theorem hostReluTail_apply (v : FVec Ideal ⟨2, ![N, C]⟩ .f32) (z : BitVec 32)
    (hz : (⟨0, ![]⟩ : Shape).BroadcastsInDim ⟨2, ![N, C]⟩ (![] : Fin 0 → Fin 2)) (i : (⟨2, ![N, C]⟩ : Shape).Idx) :
    maximumf v (broadcastInDim ⟨2, ![N, C]⟩ (![] : Fin 0 → Fin 2) hz (constant (F := Ideal) ⟨0, ![]⟩ .f32 z)) i
      = max (v i) (Ideal.ofBits .f32 z) := by
  rw [maximumf_apply, hostScalar_apply]

/-- The host's logarithm of the softmax of a row. -/
theorem hostLogSoftmaxTail_apply (v : FVec Ideal ⟨2, ![N, C]⟩ .f32) (lo : BitVec 32)
    (h' : (⟨2, ![N, C]⟩ : Shape).ReducesTo [1] ⟨1, ![N]⟩) (h : (⟨2, ![N, C]⟩ : Shape).Reduces [1] ⟨1, ![N]⟩)
    (hu : 0 < (⟨0, ![]⟩ : Shape).numel)
    (hn : (⟨0, ![]⟩ : Shape).BroadcastsInDim ⟨1, ![N]⟩ (![] : Fin 0 → Fin 1))
    (hc : (⟨1, ![N]⟩ : Shape).BroadcastsInDim ⟨2, ![N, 1]⟩ ![0])
    (hb : (⟨2, ![N, 1]⟩ : Shape).BroadcastsInDim ⟨2, ![N, C]⟩ ![0, 1])
    (p : Fin N) (q : Fin C) :
    subf (subf v (broadcastInDim ⟨2, ![N, C]⟩ ![0, 1] hb (broadcastInDim ⟨2, ![N, 1]⟩ ![0] hc
            (maximumf (broadcastInDim ⟨1, ![N]⟩ (![] : Fin 0 → Fin 1) hn (constant (F := Ideal) ⟨0, ![]⟩ .f32 lo))
              (Host.reduce FloatOps.maximumf v (constant (F := Ideal) ⟨0, ![]⟩ .f32 lo) h' hu)))))
      (broadcastInDim ⟨2, ![N, C]⟩ ![0, 1] hb (Host.log (F := Ideal) (broadcastInDim ⟨2, ![N, 1]⟩ ![0] hc
        (Host.reduceAdd (F := Ideal) (Host.exp (F := Ideal) (subf v (broadcastInDim ⟨2, ![N, C]⟩ ![0, 1] hb (broadcastInDim ⟨2, ![N, 1]⟩ ![0] hc
            (maximumf (broadcastInDim ⟨1, ![N]⟩ (![] : Fin 0 → Fin 1) hn (constant (F := Ideal) ⟨0, ![]⟩ .f32 lo))
              (Host.reduce FloatOps.maximumf v (constant (F := Ideal) ⟨0, ![]⟩ .f32 lo) h' hu))))))
          (constant (F := Ideal) ⟨0, ![]⟩ .f32 0x00000000#32) h' hu)))) (ix2 p q)
      = logSoftmaxRow (Ideal.ofBits .f32 lo) (fun j => v (ix2 p j)) q := by
  have hm : ∀ j : Fin C, broadcastInDim ⟨2, ![N, C]⟩ ![0, 1] hb (broadcastInDim ⟨2, ![N, 1]⟩ ![0] hc
            (maximumf (broadcastInDim ⟨1, ![N]⟩ (![] : Fin 0 → Fin 1) hn (constant (F := Ideal) ⟨0, ![]⟩ .f32 lo))
              (Host.reduce FloatOps.maximumf v (constant (F := Ideal) ⟨0, ![]⟩ .f32 lo) h' hu))) (ix2 p j)
      = (Finset.univ : Finset (Fin C)).fold max (Ideal.ofBits .f32 lo) (fun k => v (ix2 p k)) := fun j => by
    rw [Cert.RowOps.hostColSpread_apply, hostColumn_apply, maximumf_apply, hostScalar_apply, hostRowMax_apply _ _ h' h hu]
    exact max_lo_fold (Ideal.ofBits .f32 lo) (fun k => v (ix2 p k))
  rw [subf_apply, subf_apply, hm q, Cert.RowOps.hostColSpread_apply]
  show _ - Ideal.log (broadcastInDim ⟨2, ![N, 1]⟩ ![0] hc
        (Host.reduceAdd (F := Ideal) (Host.exp (F := Ideal) (subf v (broadcastInDim ⟨2, ![N, C]⟩ ![0, 1] hb (broadcastInDim ⟨2, ![N, 1]⟩ ![0] hc
            (maximumf (broadcastInDim ⟨1, ![N]⟩ (![] : Fin 0 → Fin 1) hn (constant (F := Ideal) ⟨0, ![]⟩ .f32 lo))
              (Host.reduce FloatOps.maximumf v (constant (F := Ideal) ⟨0, ![]⟩ .f32 lo) h' hu))))))
          (constant (F := Ideal) ⟨0, ![]⟩ .f32 0x00000000#32) h' hu) (ix2 p (0 : Fin 1))) = _
  rw [hostColumn_apply, hostRowSum_apply _ _ h' h hu]
  show _ - Ideal.log (Ideal.ofBits .f32 0x00000000#32 + _) = _
  rw [Ideal.ofBits_zero_f32, zero_add]
  unfold logSoftmaxRow
  refine congrArg (fun s => _ - Ideal.log s) (Finset.sum_congr rfl fun j _ => ?_)
  show Ideal.exp (v (ix2 p j) - broadcastInDim ⟨2, ![N, C]⟩ ![0, 1] hb (broadcastInDim ⟨2, ![N, 1]⟩ ![0] hc
            (maximumf (broadcastInDim ⟨1, ![N]⟩ (![] : Fin 0 → Fin 1) hn (constant (F := Ideal) ⟨0, ![]⟩ .f32 lo))
              (Host.reduce FloatOps.maximumf v (constant (F := Ideal) ⟨0, ![]⟩ .f32 lo) h' hu))) (ix2 p j)) = _
  rw [hm j]

end Cert.SageHost

end
-- ==== Proof.RefValue.lean ====
/-
  THE REFERENCE'S RESULT. The reference is one straight line of host operations: for each of the two layers it gathers
  the features at the edges' sources and scatter-adds them at the destinations, counts and clamps the in-degrees, divides
  the sums by the clamped degrees, forms the two products and adds the bias, divides each row by its clamped norm, and
  applies the rectifier (first layer) or the logarithm of the softmax (second layer). Read in four stretches, each over
  the contents the previous one leaves, and then entry by entry, its result is the log-softmax layer (quotient
  arrangement) of the neighbour sums of the first layer's output, that output, the clamped degrees and the second
  layer's weights and bias.
-/
import proofs.«167643_j22411139350784_2_alg».proof.Proof.RefRunP
import proofs.«167643_j22411139350784_2_alg».proof.Proof.LibHostLayer
import Idealize.ShloMosaic.Lib.StableHlo.Run

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx Cert.Sage Cert.SageHost

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are the contents. -/
theorem ofBuf_toBuf {Val : EltTy → Type} {T : BufTy} (x : TRef sig T) (v : T.Contents Val) : x.ofBuf (x.toBuf v) = v := by
  obtain ⟨r, rfl, _, _⟩ := x
  rfl

abbrev Edges := (⟨S2x1600000, .i32⟩ : BufTy).Contents (Elt Ideal)
abbrev Feat := FVec Ideal S100000x128 .f32
abbrev Out := FVec Ideal S100000x40 .f32

/-- The source node of every edge. -/
def srcRow (e : Edges) : (⟨S1600000, .i32⟩ : BufTy).Contents (Elt Ideal) :=
  shapeCast S1600000 (extractStridedSlice S1x1600000 ![0, 0] e slices_S2x1600000_S1x1600000_0_0) shapeCasts_S1x1600000_S1600000

/-- The destination node of every edge. -/
def dstRow (e : Edges) : (⟨S1600000, .i32⟩ : BufTy).Contents (Elt Ideal) :=
  shapeCast S1600000 (extractStridedSlice S1x1600000 ![1, 0] e slices_S2x1600000_S1x1600000_1_0) shapeCasts_S1x1600000_S1600000

/-- The sources as the gather's index column: a negative source is shifted by the node count. -/
def srcCol (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destinations as the scatter's index column. -/
def dstCol (t : (⟨S1600000, .i32⟩ : BufTy).Contents (Elt Ideal)) : (⟨S1600000x1, .i32⟩ : BufTy).Contents (Elt Ideal) :=
  broadcastInDim S1600000x1 ![0] bcast_S1600000_S1600000x1_0 t

/-- The neighbour sums of a feature array. -/
def aggregate (s t : (⟨S1600000, .i32⟩ : BufTy).Contents (Elt Ideal)) (f : Feat) : Feat :=
  Host.scatterAdd (F := Ideal) scatter_S100000x128_S1600000x1_S1600000x128_1_0_0_1
    (broadcastInDim S100000x128 ![] bcast_S_S100000x128 (constant (F := Ideal) S_ .f32 0x00000000#32)) (dstCol t)
    (Host.gather gather_S100000x128_S1600000x1_S1600000x128_1_0_n_n_0_1_1128 f (srcCol s))

/-- Each node's in-degree, clamped below by one. -/
def clampedDeg (t : (⟨S1600000, .i32⟩ : BufTy).Contents (Elt Ideal)) : FVec Ideal S100000 .f32 :=
  maximumf
    (Host.scatterAdd (F := Ideal) scatter_S100000_S1600000x1_S1600000_n_0_0_1
      (broadcastInDim S100000 ![] bcast_S_S100000 (constant (F := Ideal) S_ .f32 0x00000000#32)) (dstCol t)
      (broadcastInDim S1600000 ![] bcast_S_S1600000 (constant (F := Ideal) S_ .f32 0x3F800000#32)))
    (broadcastInDim S100000 ![] bcast_S_S100000 (constant (F := Ideal) S_ .f32 0x3F800000#32))

/-- The first layer's pre-activation in the host's spelling. -/
def preArr1 (S X : Feat) (dm : FVec Ideal S100000 .f32)
    (wl wr : FVec Ideal S128x128 .f32) (b : FVec Ideal S128 .f32) : Feat :=
  addf (addf (Host.dotGeneral dot_S100000x128_S128x128_S100000x128_1_0_0_1_n_n none
                (Host.divf (F := Ideal) S (broadcastInDim S100000x128 ![0, 1] bcast_S100000x1_S100000x128_0_1
                  (broadcastInDim S100000x1 ![0] bcast_S100000_S100000x1_0 dm))) wl)
              (broadcastInDim S100000x128 ![0, 1] bcast_S1x128_S100000x128_0_1 (broadcastInDim S1x128 ![1] bcast_S128_S1x128_1 b)))
       (Host.dotGeneral dot_S100000x128_S128x128_S100000x128_1_0_0_1_n_n none X wr)

/-- The second layer's pre-activation in the host's spelling. -/
def preArr2 (S X : Feat) (dm : FVec Ideal S100000 .f32)
    (wl wr : FVec Ideal S128x40 .f32) (b : FVec Ideal S40 .f32) : Out :=
  addf (addf (Host.dotGeneral dot_S100000x128_S128x40_S100000x40_1_0_0_1_n_n none
                (Host.divf (F := Ideal) S (broadcastInDim S100000x128 ![0, 1] bcast_S100000x1_S100000x128_0_1
                  (broadcastInDim S100000x1 ![0] bcast_S100000_S100000x1_0 dm))) wl)
              (broadcastInDim S100000x40 ![0, 1] bcast_S1x40_S100000x40_0_1 (broadcastInDim S1x40 ![1] bcast_S40_S1x40_1 b)))
       (Host.dotGeneral dot_S100000x128_S128x40_S100000x40_1_0_0_1_n_n none X wr)

/-- Each row of a [100000, 128] array divided by its clamped norm, in the host's spelling. -/
def normArr1 (v : Feat) : Feat :=
  Host.divf (F := Ideal) v (broadcastInDim S100000x128 ![0, 1] bcast_S100000x1_S100000x128_0_1
    (maximumf (Host.sqrt (F := Ideal) (broadcastInDim S100000x1 ![0] bcast_S100000_S100000x1_0
        (Host.reduceAdd (F := Ideal) (mulf v v) (constant (F := Ideal) S_ .f32 0x00000000#32) reducesTo_S100000x128_S100000_d1 h_S_)))
      (broadcastInDim S100000x1 ![] bcast_S_S100000x1 (constant (F := Ideal) S_ .f32 0x2B8CBCCC#32))))

/-- The same for a [100000, 40] array. -/
def normArr2 (v : Out) : Out :=
  Host.divf (F := Ideal) v (broadcastInDim S100000x40 ![0, 1] bcast_S100000x1_S100000x40_0_1
    (maximumf (Host.sqrt (F := Ideal) (broadcastInDim S100000x1 ![0] bcast_S100000_S100000x1_0
        (Host.reduceAdd (F := Ideal) (mulf v v) (constant (F := Ideal) S_ .f32 0x00000000#32) reducesTo_S100000x40_S100000_d1 h_S_)))
      (broadcastInDim S100000x1 ![] bcast_S_S100000x1 (constant (F := Ideal) S_ .f32 0x2B8CBCCC#32))))

/-- The rectifier in the host's spelling. -/
def reluArr (v : Feat) : Feat :=
  maximumf v (broadcastInDim S100000x128 ![] bcast_S_S100000x128 (constant (F := Ideal) S_ .f32 0x00000000#32))

/-- The row maximum spread back over the columns, in the host's spelling. -/
def rowMaxArr (v : Out) : Out :=
  broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce FloatOps.maximumf v (constant (F := Ideal) S_ .f32 0xFF800000#32) reducesTo_S100000x40_S100000_d1 h_S_)))

/-- The logarithm of the softmax along the rows, in the host's spelling. -/
def logSoftmaxArr (v : Out) : Out :=
  subf (subf v (rowMaxArr v))
    (broadcastInDim S100000x40 ![0, 1] bcast_S100000x1_S100000x40_0_1 (Host.log (F := Ideal) (broadcastInDim S100000x1 ![0] bcast_S100000_S100000x1_0
      (Host.reduceAdd (F := Ideal) (Host.exp (F := Ideal) (subf v (rowMaxArr v)))
        (constant (F := Ideal) S_ .f32 0x00000000#32) reducesTo_S100000x40_S100000_d1 h_S_))))

/-! ## The four stretches, each over the contents it starts from -/

theorem stageA_pre (W : Valuation τ sig (Elt Ideal)) :
    after opsA W (Proc.devRef .tc main_v28)
      = preArr1 (aggregate (srcRow (W (Proc.devRef .tc main_arg1))) (dstRow (W (Proc.devRef .tc main_arg1))) (W (Proc.devRef .tc main_arg0)))
          (W (Proc.devRef .tc main_arg0)) (clampedDeg (dstRow (W (Proc.devRef .tc main_arg1))))
          (W (Proc.devRef .tc main_arg2)) (W (Proc.devRef .tc main_arg4)) (W (Proc.devRef .tc main_arg3)) := by
  dsimp only [opsA]
  after_results_simp <;> rfl

theorem stageA_src (W : Valuation τ sig (Elt Ideal)) :
    after opsA W (Proc.devRef .tc main_v1) = srcRow (W (Proc.devRef .tc main_arg1)) := by
  dsimp only [opsA]
  after_results_simp <;> rfl

theorem stageA_dst (W : Valuation τ sig (Elt Ideal)) :
    after opsA W (Proc.devRef .tc main_v3) = dstRow (W (Proc.devRef .tc main_arg1)) := by
  dsimp only [opsA]
  after_results_simp <;> rfl

theorem keepA_arg0 (W : Valuation τ sig (Elt Ideal)) :
    after opsA W (Proc.devRef .tc main_arg0) = W (Proc.devRef .tc main_arg0) := by
  dsimp only [opsA]
  after_results_simp

theorem keepA_arg1 (W : Valuation τ sig (Elt Ideal)) :
    after opsA W (Proc.devRef .tc main_arg1) = W (Proc.devRef .tc main_arg1) := by
  dsimp only [opsA]
  after_results_simp

theorem keepA_arg2 (W : Valuation τ sig (Elt Ideal)) :
    after opsA W (Proc.devRef .tc main_arg2) = W (Proc.devRef .tc main_arg2) := by
  dsimp only [opsA]
  after_results_simp

theorem keepA_arg3 (W : Valuation τ sig (Elt Ideal)) :
    after opsA W (Proc.devRef .tc main_arg3) = W (Proc.devRef .tc main_arg3) := by
  dsimp only [opsA]
  after_results_simp

theorem keepA_arg4 (W : Valuation τ sig (Elt Ideal)) :
    after opsA W (Proc.devRef .tc main_arg4) = W (Proc.devRef .tc main_arg4) := by
  dsimp only [opsA]
  after_results_simp

theorem keepA_arg5 (W : Valuation τ sig (Elt Ideal)) :
    after opsA W (Proc.devRef .tc main_arg5) = W (Proc.devRef .tc main_arg5) := by
  dsimp only [opsA]
  after_results_simp

theorem keepA_arg6 (W : Valuation τ sig (Elt Ideal)) :
    after opsA W (Proc.devRef .tc main_arg6) = W (Proc.devRef .tc main_arg6) := by
  dsimp only [opsA]
  after_results_simp

theorem keepA_arg7 (W : Valuation τ sig (Elt Ideal)) :
    after opsA W (Proc.devRef .tc main_arg7) = W (Proc.devRef .tc main_arg7) := by
  dsimp only [opsA]
  after_results_simp

theorem stageB_hidden (W : Valuation τ sig (Elt Ideal)) :
    after opsB W (Proc.devRef .tc main_v34) = reluArr (normArr1 (W (Proc.devRef .tc main_v28))) := by
  dsimp only [opsB]
  after_results_simp
  simp only [ofBuf_toBuf]
  rfl

theorem keepB_v1 (W : Valuation τ sig (Elt Ideal)) :
    after opsB W (Proc.devRef .tc main_v1) = W (Proc.devRef .tc main_v1) := by
  dsimp only [opsB]
  after_results_simp

theorem keepB_v3 (W : Valuation τ sig (Elt Ideal)) :
    after opsB W (Proc.devRef .tc main_v3) = W (Proc.devRef .tc main_v3) := by
  dsimp only [opsB]
  after_results_simp

theorem keepB_arg0 (W : Valuation τ sig (Elt Ideal)) :
    after opsB W (Proc.devRef .tc main_arg0) = W (Proc.devRef .tc main_arg0) := by
  dsimp only [opsB]
  after_results_simp

theorem keepB_arg1 (W : Valuation τ sig (Elt Ideal)) :
    after opsB W (Proc.devRef .tc main_arg1) = W (Proc.devRef .tc main_arg1) := by
  dsimp only [opsB]
  after_results_simp

theorem keepB_arg2 (W : Valuation τ sig (Elt Ideal)) :
    after opsB W (Proc.devRef .tc main_arg2) = W (Proc.devRef .tc main_arg2) := by
  dsimp only [opsB]
  after_results_simp

theorem keepB_arg3 (W : Valuation τ sig (Elt Ideal)) :
    after opsB W (Proc.devRef .tc main_arg3) = W (Proc.devRef .tc main_arg3) := by
  dsimp only [opsB]
  after_results_simp

theorem keepB_arg4 (W : Valuation τ sig (Elt Ideal)) :
    after opsB W (Proc.devRef .tc main_arg4) = W (Proc.devRef .tc main_arg4) := by
  dsimp only [opsB]
  after_results_simp

theorem keepB_arg5 (W : Valuation τ sig (Elt Ideal)) :
    after opsB W (Proc.devRef .tc main_arg5) = W (Proc.devRef .tc main_arg5) := by
  dsimp only [opsB]
  after_results_simp

theorem keepB_arg6 (W : Valuation τ sig (Elt Ideal)) :
    after opsB W (Proc.devRef .tc main_arg6) = W (Proc.devRef .tc main_arg6) := by
  dsimp only [opsB]
  after_results_simp

theorem keepB_arg7 (W : Valuation τ sig (Elt Ideal)) :
    after opsB W (Proc.devRef .tc main_arg7) = W (Proc.devRef .tc main_arg7) := by
  dsimp only [opsB]
  after_results_simp

theorem stageC_pre (W : Valuation τ sig (Elt Ideal)) :
    after opsC W (Proc.devRef .tc main_v59)
      = preArr2 (aggregate (W (Proc.devRef .tc main_v1)) (W (Proc.devRef .tc main_v3)) (W (Proc.devRef .tc main_v34)))
          (W (Proc.devRef .tc main_v34)) (clampedDeg (W (Proc.devRef .tc main_v3)))
          (W (Proc.devRef .tc main_arg5)) (W (Proc.devRef .tc main_arg7)) (W (Proc.devRef .tc main_arg6)) := by
  dsimp only [opsC]
  after_results_simp <;> rfl

theorem keepC_arg0 (W : Valuation τ sig (Elt Ideal)) :
    after opsC W (Proc.devRef .tc main_arg0) = W (Proc.devRef .tc main_arg0) := by
  dsimp only [opsC]
  after_results_simp

theorem keepC_arg1 (W : Valuation τ sig (Elt Ideal)) :
    after opsC W (Proc.devRef .tc main_arg1) = W (Proc.devRef .tc main_arg1) := by
  dsimp only [opsC]
  after_results_simp

theorem keepC_arg2 (W : Valuation τ sig (Elt Ideal)) :
    after opsC W (Proc.devRef .tc main_arg2) = W (Proc.devRef .tc main_arg2) := by
  dsimp only [opsC]
  after_results_simp

theorem keepC_arg3 (W : Valuation τ sig (Elt Ideal)) :
    after opsC W (Proc.devRef .tc main_arg3) = W (Proc.devRef .tc main_arg3) := by
  dsimp only [opsC]
  after_results_simp

theorem keepC_arg4 (W : Valuation τ sig (Elt Ideal)) :
    after opsC W (Proc.devRef .tc main_arg4) = W (Proc.devRef .tc main_arg4) := by
  dsimp only [opsC]
  after_results_simp

theorem keepC_arg5 (W : Valuation τ sig (Elt Ideal)) :
    after opsC W (Proc.devRef .tc main_arg5) = W (Proc.devRef .tc main_arg5) := by
  dsimp only [opsC]
  after_results_simp

theorem keepC_arg6 (W : Valuation τ sig (Elt Ideal)) :
    after opsC W (Proc.devRef .tc main_arg6) = W (Proc.devRef .tc main_arg6) := by
  dsimp only [opsC]
  after_results_simp

theorem keepC_arg7 (W : Valuation τ sig (Elt Ideal)) :
    after opsC W (Proc.devRef .tc main_arg7) = W (Proc.devRef .tc main_arg7) := by
  dsimp only [opsC]
  after_results_simp

theorem stageD_norm (W : Valuation τ sig (Elt Ideal)) :
    after opsD W (Proc.devRef .tc main_v64) = normArr2 (W (Proc.devRef .tc main_v59)) := by
  dsimp only [opsD]
  after_results_simp
  simp only [ofBuf_toBuf]
  rfl

theorem keepD_arg0 (W : Valuation τ sig (Elt Ideal)) :
    after opsD W (Proc.devRef .tc main_arg0) = W (Proc.devRef .tc main_arg0) := by
  dsimp only [opsD]
  after_results_simp

theorem keepD_arg1 (W : Valuation τ sig (Elt Ideal)) :
    after opsD W (Proc.devRef .tc main_arg1) = W (Proc.devRef .tc main_arg1) := by
  dsimp only [opsD]
  after_results_simp

theorem keepD_arg2 (W : Valuation τ sig (Elt Ideal)) :
    after opsD W (Proc.devRef .tc main_arg2) = W (Proc.devRef .tc main_arg2) := by
  dsimp only [opsD]
  after_results_simp

theorem keepD_arg3 (W : Valuation τ sig (Elt Ideal)) :
    after opsD W (Proc.devRef .tc main_arg3) = W (Proc.devRef .tc main_arg3) := by
  dsimp only [opsD]
  after_results_simp

theorem keepD_arg4 (W : Valuation τ sig (Elt Ideal)) :
    after opsD W (Proc.devRef .tc main_arg4) = W (Proc.devRef .tc main_arg4) := by
  dsimp only [opsD]
  after_results_simp

theorem keepD_arg5 (W : Valuation τ sig (Elt Ideal)) :
    after opsD W (Proc.devRef .tc main_arg5) = W (Proc.devRef .tc main_arg5) := by
  dsimp only [opsD]
  after_results_simp

theorem keepD_arg6 (W : Valuation τ sig (Elt Ideal)) :
    after opsD W (Proc.devRef .tc main_arg6) = W (Proc.devRef .tc main_arg6) := by
  dsimp only [opsD]
  after_results_simp

theorem keepD_arg7 (W : Valuation τ sig (Elt Ideal)) :
    after opsD W (Proc.devRef .tc main_arg7) = W (Proc.devRef .tc main_arg7) := by
  dsimp only [opsD]
  after_results_simp

theorem stageE_out (W : Valuation τ sig (Elt Ideal)) :
    after opsE W (Proc.devRef .tc main_v65) = logSoftmaxArr (W (Proc.devRef .tc main_v64)) := by
  dsimp only [opsE]
  after_results_simp
  simp only [ofBuf_toBuf]
  rfl

theorem keepE_arg0 (W : Valuation τ sig (Elt Ideal)) :
    after opsE W (Proc.devRef .tc main_arg0) = W (Proc.devRef .tc main_arg0) := by
  dsimp only [opsE]
  after_results_simp

theorem keepE_arg1 (W : Valuation τ sig (Elt Ideal)) :
    after opsE W (Proc.devRef .tc main_arg1) = W (Proc.devRef .tc main_arg1) := by
  dsimp only [opsE]
  after_results_simp

theorem keepE_arg2 (W : Valuation τ sig (Elt Ideal)) :
    after opsE W (Proc.devRef .tc main_arg2) = W (Proc.devRef .tc main_arg2) := by
  dsimp only [opsE]
  after_results_simp

theorem keepE_arg3 (W : Valuation τ sig (Elt Ideal)) :
    after opsE W (Proc.devRef .tc main_arg3) = W (Proc.devRef .tc main_arg3) := by
  dsimp only [opsE]
  after_results_simp

theorem keepE_arg4 (W : Valuation τ sig (Elt Ideal)) :
    after opsE W (Proc.devRef .tc main_arg4) = W (Proc.devRef .tc main_arg4) := by
  dsimp only [opsE]
  after_results_simp

theorem keepE_arg5 (W : Valuation τ sig (Elt Ideal)) :
    after opsE W (Proc.devRef .tc main_arg5) = W (Proc.devRef .tc main_arg5) := by
  dsimp only [opsE]
  after_results_simp

theorem keepE_arg6 (W : Valuation τ sig (Elt Ideal)) :
    after opsE W (Proc.devRef .tc main_arg6) = W (Proc.devRef .tc main_arg6) := by
  dsimp only [opsE]
  after_results_simp

theorem keepE_arg7 (W : Valuation τ sig (Elt Ideal)) :
    after opsE W (Proc.devRef .tc main_arg7) = W (Proc.devRef .tc main_arg7) := by
  dsimp only [opsE]
  after_results_simp

/-! ## Entry by entry -/

/-- The first layer in the host's spelling is the rectified layer, quotient arrangement. -/
theorem hidden_eq (S X : Feat) (dm : FVec Ideal S100000 .f32)
    (wl wr : FVec Ideal S128x128 .f32) (b : FVec Ideal S128 .f32) :
    reluArr (normArr1 (preArr1 S X dm wl wr b))
      = reluLayerDiv (Ideal.ofBits .f32 0x00000000#32) (Ideal.ofBits .f32 0x2B8CBCCC#32) S X dm wl wr b := by
  funext i
  obtain ⟨p, q, rfl⟩ : ∃ (p : Fin 100000) (q : Fin 128), i = ix2 p q := ⟨i 0, i 1, eq_ix2 i⟩
  unfold reluArr reluLayerDiv reluRow
  refine (hostReluTail_apply _ 0x00000000#32 _ (ix2 p q)).trans ?_
  refine congrArg (fun a => max a (Ideal.ofBits .f32 0x00000000#32)) ?_
  unfold normArr1
  refine (hostNormTail_apply _ 0x2B8CBCCC#32 reducesTo_S100000x128_S100000_d1 (by decide) h_S_ _ _ _ p q).trans ?_
  refine congrArg (fun r => normRow (Ideal.ofBits .f32 0x2B8CBCCC#32) r q) (funext fun j => ?_)
  unfold preArr1
  exact hostPre_apply _ _ rfl S X dm wl wr b _ _ _ _ p j

/-- The second layer in the host's spelling is the log-softmax layer, quotient arrangement. -/
theorem output_eq (S X : Feat) (dm : FVec Ideal S100000 .f32)
    (wl wr : FVec Ideal S128x40 .f32) (b : FVec Ideal S40 .f32) :
    logSoftmaxArr (normArr2 (preArr2 S X dm wl wr b))
      = logSoftmaxLayerDiv (Ideal.ofBits .f32 0xFF800000#32) (Ideal.ofBits .f32 0x2B8CBCCC#32) S X dm wl wr b := by
  funext i
  obtain ⟨p, q, rfl⟩ : ∃ (p : Fin 100000) (q : Fin 40), i = ix2 p q := ⟨i 0, i 1, eq_ix2 i⟩
  unfold logSoftmaxArr rowMaxArr logSoftmaxLayerDiv
  refine (hostLogSoftmaxTail_apply _ 0xFF800000#32 reducesTo_S100000x40_S100000_d1 (by decide) h_S_ _ _ _ p q).trans ?_
  refine congrArg (fun r => logSoftmaxRow (Ideal.ofBits .f32 0xFF800000#32) r q) (funext fun j => ?_)
  unfold normArr2
  refine (hostNormTail_apply _ 0x2B8CBCCC#32 reducesTo_S100000x40_S100000_d1 (by decide) h_S_ _ _ _ p j).trans ?_
  refine congrArg (fun r => normRow (Ideal.ofBits .f32 0x2B8CBCCC#32) r j) (funext fun j' => ?_)
  unfold preArr2
  exact hostPre_apply _ _ rfl S X dm wl wr b _ _ _ _ p j'

/-! ## The result -/

/-- The first layer's output as a function of the arguments. -/
def hiddenOf (e : Edges) (x : Feat) (wl wr : FVec Ideal S128x128 .f32)
    (b : FVec Ideal S128 .f32) : Feat :=
  reluLayerDiv (Ideal.ofBits .f32 0x00000000#32) (Ideal.ofBits .f32 0x2B8CBCCC#32)
    (aggregate (srcRow e) (dstRow e) x) x (clampedDeg (dstRow e)) wl wr b

/-- The reference's result as a function of the arguments. -/
def resultOf (e : Edges) (x : Feat) (wl1 wr1 : FVec Ideal S128x128 .f32)
    (b1 : FVec Ideal S128 .f32) (wl2 wr2 : FVec Ideal S128x40 .f32)
    (b2 : FVec Ideal S40 .f32) : Out :=
  logSoftmaxLayerDiv (Ideal.ofBits .f32 0xFF800000#32) (Ideal.ofBits .f32 0x2B8CBCCC#32)
    (aggregate (srcRow e) (dstRow e) (hiddenOf e x wl1 wr1 b1)) (hiddenOf e x wl1 wr1 b1) (clampedDeg (dstRow e)) wl2 wr2 b2

variable (m : (ℓ : Loc nD τ sig) → Buf (Elt Ideal) ℓ) (ρ : Dev nD → PrngReg)

/-- The fold of all the operations over the launch contents, at the result's buffer, is that function. -/
theorem result_eq (c : Dev nD) :
    after ops (launchContents m c) (Proc.devRef .tc main_v65)
      = resultOf (m ((c.tc : Thread nD τ).loc main_arg1)) (m ((c.tc : Thread nD τ).loc main_arg0)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) := by
  show after (opsA ++ opsB ++ opsC ++ opsD ++ opsE) _ _ = _
  rw [after_append, after_append, after_append, after_append, stageE_out, stageD_norm, stageC_pre, stageB_hidden, keepB_v1, keepB_v3,
    keepB_arg5, keepB_arg6, keepB_arg7, stageA_pre, stageA_src, stageA_dst, keepA_arg5, keepA_arg6, keepA_arg7,
    hidden_eq, output_eq]
  rfl

theorem kept_arg0 (c : Dev nD) :
    after ops (launchContents m c) (Proc.devRef .tc main_arg0) = m ((c.tc : Thread nD τ).loc main_arg0) := by
  show after (opsA ++ opsB ++ opsC ++ opsD ++ opsE) _ _ = _
  rw [after_append, after_append, after_append, after_append, keepE_arg0, keepD_arg0, keepC_arg0, keepB_arg0, keepA_arg0]

theorem kept_arg1 (c : Dev nD) :
    after ops (launchContents m c) (Proc.devRef .tc main_arg1) = m ((c.tc : Thread nD τ).loc main_arg1) := by
  show after (opsA ++ opsB ++ opsC ++ opsD ++ opsE) _ _ = _
  rw [after_append, after_append, after_append, after_append, keepE_arg1, keepD_arg1, keepC_arg1, keepB_arg1, keepA_arg1]

theorem kept_arg2 (c : Dev nD) :
    after ops (launchContents m c) (Proc.devRef .tc main_arg2) = m ((c.tc : Thread nD τ).loc main_arg2) := by
  show after (opsA ++ opsB ++ opsC ++ opsD ++ opsE) _ _ = _
  rw [after_append, after_append, after_append, after_append, keepE_arg2, keepD_arg2, keepC_arg2, keepB_arg2, keepA_arg2]

theorem kept_arg3 (c : Dev nD) :
    after ops (launchContents m c) (Proc.devRef .tc main_arg3) = m ((c.tc : Thread nD τ).loc main_arg3) := by
  show after (opsA ++ opsB ++ opsC ++ opsD ++ opsE) _ _ = _
  rw [after_append, after_append, after_append, after_append, keepE_arg3, keepD_arg3, keepC_arg3, keepB_arg3, keepA_arg3]

theorem kept_arg4 (c : Dev nD) :
    after ops (launchContents m c) (Proc.devRef .tc main_arg4) = m ((c.tc : Thread nD τ).loc main_arg4) := by
  show after (opsA ++ opsB ++ opsC ++ opsD ++ opsE) _ _ = _
  rw [after_append, after_append, after_append, after_append, keepE_arg4, keepD_arg4, keepC_arg4, keepB_arg4, keepA_arg4]

theorem kept_arg5 (c : Dev nD) :
    after ops (launchContents m c) (Proc.devRef .tc main_arg5) = m ((c.tc : Thread nD τ).loc main_arg5) := by
  show after (opsA ++ opsB ++ opsC ++ opsD ++ opsE) _ _ = _
  rw [after_append, after_append, after_append, after_append, keepE_arg5, keepD_arg5, keepC_arg5, keepB_arg5, keepA_arg5]

theorem kept_arg6 (c : Dev nD) :
    after ops (launchContents m c) (Proc.devRef .tc main_arg6) = m ((c.tc : Thread nD τ).loc main_arg6) := by
  show after (opsA ++ opsB ++ opsC ++ opsD ++ opsE) _ _ = _
  rw [after_append, after_append, after_append, after_append, keepE_arg6, keepD_arg6, keepC_arg6, keepB_arg6, keepA_arg6]

theorem kept_arg7 (c : Dev nD) :
    after ops (launchContents m c) (Proc.devRef .tc main_arg7) = m ((c.tc : Thread nD τ).loc main_arg7) := by
  show after (opsA ++ opsB ++ opsC ++ opsD ++ opsE) _ _ = _
  rw [after_append, after_append, after_append, after_append, keepE_arg7, keepD_arg7, keepC_arg7, keepB_arg7, keepA_arg7]

/-- Every weakly fair execution of the idealized reference terminates, nothing faulting, with the result array at that
    function of the arguments and the arguments as launched. -/
theorem run : θ_run defs (onTc (τ := τ) (main (F := Ideal))) ⟨m, fun _ => 0, ρ⟩ (fun r => ∀ c : Dev nD,
      r.2.mem ((c.tc : Thread nD τ).loc main_v65) = resultOf (m ((c.tc : Thread nD τ).loc main_arg1)) (m ((c.tc : Thread nD τ).loc main_arg0)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v65).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c)⟩) (run_fold m ρ)

end Cert.ReferenceIdeal.RefValue

end
-- ==== Proof.Bridge.lean ====
/-
  THE TWO RESULTS ARE ONE FUNCTION OF THE ARGUMENTS. Both programs gather, scatter-add and count with the same host
  operations of the same edge array, so the neighbour sums and the clamped degrees are the same terms. They differ in
  the arrangement of the pre-activation: the kernel multiplies the sums by the reciprocal 1 / max (deg, 1) and adds the
  bias last, the reference divides by max (deg, 1) and adds the bias before the self term. The clamped degree is at
  least one, hence not zero, and then the two arrangements agree for every extended real (no finiteness is used).
-/
import proofs.«167643_j22411139350784_2_alg».proof.Proof.KernelValue
import proofs.«167643_j22411139350784_2_alg».proof.Proof.RefValue

set_option maxRecDepth 16384

noncomputable section

namespace Cert.Bridge

open Idealize.ShloMosaic Idealize.ShloMosaic.ValueIdx Cert.Sage Cert.SageHost

/-- The word 0x3F800000 denotes one. -/
theorem ofBits_one : Ideal.ofBits .f32 0x3F800000#32 = 1 := by
  simp [Ideal.ofBits, Ideal.ieee, -EReal.coe_mul]; norm_num

/-- The host's quotient of two arrays, at an index, is the quotient of the entries. -/
theorem hostDivf_apply {s : Shape} (a b : FVec Ideal s .f32) (i : s.Idx) :
    Host.divf (F := Ideal) a b i = Ideal.div (a i) (b i) := rfl

/-- The neighbour sums are formed by the same operations in both programs. -/
theorem aggregate_eq (e : Cert.KernelIdeal.Entry.Edges) (f : Cert.KernelIdeal.Entry.Feat) :
    Cert.KernelIdeal.Entry.aggregate e f = Cert.ReferenceIdeal.RefValue.aggregate (Cert.ReferenceIdeal.RefValue.srcRow e) (Cert.ReferenceIdeal.RefValue.dstRow e) f := rfl

/-- So are the clamped degrees. -/
theorem clampedDeg_eq (e : Cert.KernelIdeal.Entry.Edges) : Cert.KernelIdeal.Entry.clampedDeg e = Cert.ReferenceIdeal.RefValue.clampedDeg (Cert.ReferenceIdeal.RefValue.dstRow e) := rfl

/-- The kernel's reciprocal column holds, at node p, the reciprocal of the clamped degree. -/
theorem recip_apply (e : Cert.KernelIdeal.Entry.Edges) (p : Fin 100000) :
    Cert.KernelIdeal.Entry.recipDeg e (ix2 p (0 : Fin 1)) = Ideal.div 1 (Cert.ReferenceIdeal.RefValue.clampedDeg (Cert.ReferenceIdeal.RefValue.dstRow e) (ix1 p)) := by
  unfold Cert.KernelIdeal.Entry.recipDeg
  rw [hostColumn_apply, hostDivf_apply, hostScalar_apply, ofBits_one, clampedDeg_eq]

/-- The clamped degree is at least one, so it is not zero. -/
theorem clampedDeg_ne_zero (t : (⟨Cert.ReferenceIdeal.S1600000, .i32⟩ : BufTy).Contents (Elt Ideal)) (p : Fin 100000) :
    Cert.ReferenceIdeal.RefValue.clampedDeg t (ix1 p) ≠ 0 := by
  unfold Cert.ReferenceIdeal.RefValue.clampedDeg
  rw [maximumf_apply, hostScalar_apply, ofBits_one]
  exact ne_of_gt (lt_of_lt_of_le zero_lt_one (le_max_right _ _))

/-- The first layer's outputs agree. -/
theorem hidden_eq (e : Cert.KernelIdeal.Entry.Edges) (x : Cert.KernelIdeal.Entry.Feat) (wl wr : (⟨Cert.KernelIdeal.S128x128, .f32⟩ : BufTy).Contents (Elt Ideal))
    (b : (⟨Cert.KernelIdeal.S128, .f32⟩ : BufTy).Contents (Elt Ideal)) :
    Cert.KernelIdeal.Entry.hiddenOf e x wl wr b = Cert.ReferenceIdeal.RefValue.hiddenOf e x wl wr b := by
  unfold Cert.KernelIdeal.Entry.hiddenOf Cert.ReferenceIdeal.RefValue.hiddenOf
  rw [reluLayer_eq_div _ _ _ _ _ (Cert.ReferenceIdeal.RefValue.clampedDeg (Cert.ReferenceIdeal.RefValue.dstRow e)) _ _ _ (recip_apply e) (clampedDeg_ne_zero _), aggregate_eq]

/-- The results agree. -/
theorem result_eq (e : Cert.KernelIdeal.Entry.Edges) (x : Cert.KernelIdeal.Entry.Feat) (wl1 wr1 : (⟨Cert.KernelIdeal.S128x128, .f32⟩ : BufTy).Contents (Elt Ideal))
    (b1 : (⟨Cert.KernelIdeal.S128, .f32⟩ : BufTy).Contents (Elt Ideal))
    (wl2 wr2 : (⟨Cert.KernelIdeal.S128x40, .f32⟩ : BufTy).Contents (Elt Ideal))
    (b2 : (⟨Cert.KernelIdeal.S40, .f32⟩ : BufTy).Contents (Elt Ideal)) :
    Cert.KernelIdeal.Entry.resultOf e x wl1 wr1 b1 wl2 wr2 b2 = Cert.ReferenceIdeal.RefValue.resultOf e x wl1 wr1 b1 wl2 wr2 b2 := by
  unfold Cert.KernelIdeal.Entry.resultOf Cert.ReferenceIdeal.RefValue.resultOf
  rw [logSoftmaxLayer_eq_div _ _ _ _ _ (Cert.ReferenceIdeal.RefValue.clampedDeg (Cert.ReferenceIdeal.RefValue.dstRow e)) _ _ _ (recip_apply e) (clampedDeg_ne_zero _),
    hidden_eq, aggregate_eq]

end Cert.Bridge

end
-- ==== Proof.lean ====
/-
  A two-layer graph convolution with mean aggregation, as a Pallas kernel (two pallas_calls among host gathers and
  scatter-adds) against its jnp reference, over the extended reals.

  Both programs compute, for every node p and both layers,
      pre p q = sum_k (S p k / max (deg p, 1)) * Wl k q + sum_k X p k * Wr k q + b q,
  divide row p by max (sqrt (sum_j (pre p j)^2), eps), and apply the rectifier (first layer) or the logarithm of the
  softmax along the row (second layer); S is the sum of the features of p's in-neighbours, and the second layer's X is the
  first layer's output. The kernel takes the mean as a product with the reciprocal of the clamped degree and adds the
  bias last; the reference takes it as a quotient and adds the bias before the self term. Since max (deg p, 1) is not
  zero the two agree on every extended real; commutativity and associativity of the sum do the rest. Every change of
  float format is the identity here, so carrying the features in a shorter format through the aggregation changes nothing.

  The kernel's frames are the generated ones; the idealization rewrote no operation. The kernel's result is read off its
  run region by region: each grid point writes 4000 rows of one function of the whole arrays (KernelBody, RegionValue), the
  host stretches around the regions are read as terms of the arguments (KernelValue). The reference's result is read off
  its run in four stretches and then entry by entry (RefValue). Bridge shows the two functions of the arguments equal.
-/
import proofs.«167643_j22411139350784_2_alg».proof.Defs
import proofs.«167643_j22411139350784_2_alg».proof.Proof.Gen.Kernel
import proofs.«167643_j22411139350784_2_alg».proof.Proof.Gen.Kernel.Skeleton
import proofs.«167643_j22411139350784_2_alg».proof.Proof.Gen.Kernel.Launch
import proofs.«167643_j22411139350784_2_alg».proof.Proof.Gen.Kernel.Points
import proofs.«167643_j22411139350784_2_alg».proof.Proof.Gen.Kernel.Frame
import proofs.«167643_j22411139350784_2_alg».proof.Proof.Gen.KernelIdeal
import proofs.«167643_j22411139350784_2_alg».proof.Proof.Gen.KernelIdeal.Skeleton
import proofs.«167643_j22411139350784_2_alg».proof.Proof.Gen.KernelIdeal.Launch
import proofs.«167643_j22411139350784_2_alg».proof.Proof.Gen.KernelIdeal.Points
import proofs.«167643_j22411139350784_2_alg».proof.Proof.Gen.KernelIdeal.Frame
import proofs.«167643_j22411139350784_2_alg».proof.Proof.Gen.ReferenceIdeal
import proofs.«167643_j22411139350784_2_alg».proof.Proof.Gen.Pre_finite_inputs
import proofs.«167643_j22411139350784_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both idealized programs end with the same function of the arguments in
    their result arrays. -/
theorem algebraic : Cert.algebraic_KernelIdeal_ReferenceIdeal := by
  intro m ρ m' ρ' _ hagree
  refine ⟨fun c => Cert.KernelIdeal.Entry.resultOf (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)),
    Cert.KernelIdeal.Entry.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]
  exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
